-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S128x256x4 : Shape := ⟨3, ![128, 256, 4]⟩
abbrev S225x64 : Shape := ⟨2, ![225, 64]⟩
abbrev S256x300 : Shape := ⟨2, ![256, 300]⟩
abbrev S2604x1024 : Shape := ⟨2, ![2604, 1024]⟩
abbrev S1024 : Shape := ⟨1, ![1024]⟩
abbrev S1024x512 : Shape := ⟨2, ![1024, 512]⟩
abbrev S512 : Shape := ⟨1, ![512]⟩
abbrev S16384 : Shape := ⟨1, ![16384]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S128x256x4 : S_.BroadcastsInDim S128x256x4 (![] : Fin 0 → Fin S128x256x4.rank)
  reducesTo_S128x256x4_S_d0_1_2 : S128x256x4.ReducesTo [0, 1, 2] S_
  bcast_S_S225x64 : S_.BroadcastsInDim S225x64 (![] : Fin 0 → Fin S225x64.rank)
  reducesTo_S225x64_S_d0_1 : S225x64.ReducesTo [0, 1] S_
  bcast_S_S256x300 : S_.BroadcastsInDim S256x300 (![] : Fin 0 → Fin S256x300.rank)
  reducesTo_S256x300_S_d0_1 : S256x300.ReducesTo [0, 1] S_
  bcast_S_S2604x1024 : S_.BroadcastsInDim S2604x1024 (![] : Fin 0 → Fin S2604x1024.rank)
  reducesTo_S2604x1024_S_d0_1 : S2604x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S2604x1024 .f32) (main_arg5 : FVec F S1024 .f32) (main_arg6 : FVec F S1024x512 .f32) (main_arg7 : FVec F S512 .f32) (main_v13 : IVec S_ 1) (main_v16 : IVec S256x300 1) : IVec S_ 1 :=
  let main_c_5 : IVec S_ 1 := constantI S_ 1 1#1
  let main_v17 : IVec S_ 1 := (fun x v => Host.reduce IntOp.andi x v reducesTo_S256x300_S_d0_1 h_S_) main_v16 main_c_5
  let main_v18 : IVec S_ 1 := andi main_v13 main_v17
  let main_v19 : FVec F S2604x1024 .f32 := Host.absf main_arg4
  let main_cst_6 : FVec F S_ .f32 := constant S_ .f32 0x7F800000#32
  let main_v20 : FVec F S2604x1024 .f32 := broadcastInDim S2604x1024 ![] bcast_S_S2604x1024 main_cst_6
  let main_v21 : IVec S2604x1024 1 := cmpf .olt main_v19 main_v20
  let main_c_7 : IVec S_ 1 := constantI S_ 1 1#1
  let main_v22 : IVec S_ 1 := (fun x v => Host.reduce IntOp.andi x v reducesTo_S2604x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x512 .f32 := Host.absf main_arg6
  let main_cst_10 : FVec F S_ .f32 := constant S_ .f32 0x7F800000#32
  let main_v30 : FVec F S1024x512 .f32 := broadcastInDim S1024x512 ![] bcast_S_S1024x512 main_cst_10
  let main_v31 : IVec S1024x512 1 := cmpf .olt main_v29 main_v30
  let main_c_11 : IVec S_ 1 := constantI S_ 1 1#1
  let main_v32 : IVec S_ 1 := (fun x v => Host.reduce IntOp.andi x v reducesTo_S1024x512_S_d0_1 h_S_) main_v31 main_c_11
  let main_v33 : IVec S_ 1 := andi main_v28 main_v32
  fn_part2 (F := F) main_arg7 main_v33

def fn {F : FTy → Type} [FloatOps F] (main_arg0 : FVec F S16384x2048 .f32) (main_arg1 : FVec F S128x256x4 .f32) (main_arg2 : FVec F S225x64 .f32) (main_arg3 : FVec F S256x300 .f32) (main_arg4 : FVec F S2604x1024 .f32) (main_arg5 : FVec F S1024 .f32) (main_arg6 : FVec F S1024x512 .f32) (main_arg7 : FVec F S512 .f32) (main_arg8 : IVec S16384 32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S128x256x4 .f32 := Host.absf main_arg1
  let main_cst_0 : FVec F S_ .f32 := constant S_ .f32 0x7F800000#32
  let main_v5 : FVec F S128x256x4 .f32 := broadcastInDim S128x256x4 ![] bcast_S_S128x256x4 main_cst_0
  let main_v6 : IVec S128x256x4 1 := cmpf .olt main_v4 main_v5
  let main_c_1 : IVec S_ 1 := constantI S_ 1 1#1
  let main_v7 : IVec S_ 1 := (fun x v => Host.reduce IntOp.andi x v reducesTo_S128x256x4_S_d0_1_2 h_S_) main_v6 main_c_1
  let main_v8 : IVec S_ 1 := andi main_v3 main_v7
  let main_v9 : FVec F S225x64 .f32 := Host.absf main_arg2
  let main_cst_2 : FVec F S_ .f32 := constant S_ .f32 0x7F800000#32
  let main_v10 : FVec F S225x64 .f32 := broadcastInDim S225x64 ![] bcast_S_S225x64 main_cst_2
  let main_v11 : IVec S225x64 1 := cmpf .olt main_v9 main_v10
  let main_c_3 : IVec S_ 1 := constantI S_ 1 1#1
  let main_v12 : IVec S_ 1 := (fun x v => Host.reduce IntOp.andi x v reducesTo_S225x64_S_d0_1 h_S_) main_v11 main_c_3
  let main_v13 : IVec S_ 1 := andi main_v8 main_v12
  let main_v14 : FVec F S256x300 .f32 := Host.absf main_arg3
  let main_cst_4 : FVec F S_ .f32 := constant S_ .f32 0x7F800000#32
  let main_v15 : FVec F S256x300 .f32 := broadcastInDim S256x300 ![] bcast_S_S256x300 main_cst_4
  let main_v16 : IVec S256x300 1 := cmpf .olt main_v14 main_v15
  fn_part1 (F := F) main_arg4 main_arg5 main_arg6 main_arg7 main_v13 main_v16
-- ==== Kernel.lean ====
abbrev S16384x2048 : Shape := ⟨2, ![16384, 2048]⟩
abbrev S128x256x4 : Shape := ⟨3, ![128, 256, 4]⟩
abbrev S225x64 : Shape := ⟨2, ![225, 64]⟩
abbrev S256x300 : Shape := ⟨2, ![256, 300]⟩
abbrev S2604x1024 : Shape := ⟨2, ![2604, 1024]⟩
abbrev S1024 : Shape := ⟨1, ![1024]⟩
abbrev S1024x512 : Shape := ⟨2, ![1024, 512]⟩
abbrev S512 : Shape := ⟨1, ![512]⟩
abbrev S16384 : Shape := ⟨1, ![16384]⟩
abbrev S_ : Shape := ⟨0, ![]⟩
abbrev S32768 : Shape := ⟨1, ![32768]⟩
abbrev S16384x1 : Shape := ⟨2, ![16384, 1]⟩
abbrev S32768x2048 : Shape := ⟨2, ![32768, 2048]⟩
abbrev S128x256x4x1 : Shape := ⟨4, ![128, 256, 4, 1]⟩
abbrev S128x256x4x64 : Shape := ⟨4, ![128, 256, 4, 64]⟩
abbrev S32768x256 : Shape := ⟨2, ![32768, 256]⟩
abbrev S32768x1 : Shape := ⟨2, ![32768, 1]⟩
abbrev S1x256x1x300 : Shape := ⟨4, ![1, 256, 1, 300]⟩
abbrev S128x256x1x300 : Shape := ⟨4, ![128, 256, 1, 300]⟩
abbrev S32768x300 : Shape := ⟨2, ![32768, 300]⟩
abbrev S256x1024 : Shape := ⟨2, ![256, 1024]⟩
abbrev S2048x1024 : Shape := ⟨2, ![2048, 1024]⟩
abbrev S300x1024 : Shape := ⟨2, ![300, 1024]⟩
abbrev S1x1024 : Shape := ⟨2, ![1, 1024]⟩
abbrev S1x512 : Shape := ⟨2, ![1, 512]⟩
abbrev S32768x512 : Shape := ⟨2, ![32768, 512]⟩
abbrev S256x256 : Shape := ⟨2, ![256, 256]⟩
abbrev S256x2048 : Shape := ⟨2, ![256, 2048]⟩
abbrev S256x512 : Shape := ⟨2, ![256, 512]⟩

abbrev nBuf : Space → Nat
  | .hbm => 74
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S128x256x4, .f32⟩
  | .hbm, ⟨2, _⟩ => ⟨S225x64, .f32⟩
  | .hbm, ⟨3, _⟩ => ⟨S256x300, .f32⟩
  | .hbm, ⟨4, _⟩ => ⟨S2604x1024, .f32⟩
  | .hbm, ⟨5, _⟩ => ⟨S1024, .f32⟩
  | .hbm, ⟨6, _⟩ => ⟨S1024x512, .f32⟩
  | .hbm, ⟨7, _⟩ => ⟨S512, .f32⟩
  | .hbm, ⟨8, _⟩ => ⟨S16384, .i32⟩
  | .hbm, ⟨9, _⟩ => ⟨S_, .f32⟩
  | .hbm, ⟨10, _⟩ => ⟨S32768, .f32⟩
  | .hbm, ⟨11, _⟩ => ⟨S_, .i32⟩
  | .hbm, ⟨12, _⟩ => ⟨S16384, .i32⟩
  | .hbm, ⟨13, _⟩ => ⟨S16384, .i1⟩
  | .hbm, ⟨14, _⟩ => ⟨S_, .i32⟩
  | .hbm, ⟨15, _⟩ => ⟨S16384, .i32⟩
  | .hbm, ⟨16, _⟩ => ⟨S16384, .i32⟩
  | .hbm, ⟨17, _⟩ => ⟨S16384, .i32⟩
  | .hbm, ⟨18, _⟩ => ⟨S16384x1, .i32⟩
  | .hbm, ⟨19, _⟩ => ⟨S_, .f32⟩
  | .hbm, ⟨20, _⟩ => ⟨S16384, .f32⟩
  | .hbm, ⟨21, _⟩ => ⟨S32768, .f32⟩
  | .hbm, ⟨22, _⟩ => ⟨S_, .f32⟩
  | .hbm, ⟨23, _⟩ => ⟨S32768x2048, .f32⟩
  | .hbm, ⟨24, _⟩ => ⟨S_, .i32⟩
  | .hbm, ⟨25, _⟩ => ⟨S16384, .i32⟩
  | .hbm, ⟨26, _⟩ => ⟨S16384, .i1⟩
  | .hbm, ⟨27, _⟩ => ⟨S_, .i32⟩
  | .hbm, ⟨28, _⟩ => ⟨S16384, .i32⟩
  | .hbm, ⟨29, _⟩ => ⟨S16384, .i32⟩
  | .hbm, ⟨30, _⟩ => ⟨S16384, .i32⟩
  | .hbm, ⟨31, _⟩ => ⟨S16384x1, .i32⟩
  | .hbm, ⟨32, _⟩ => ⟨S32768x2048, .f32⟩
  | .hbm, ⟨33, _⟩ => ⟨S_, .f32⟩
  | .hbm, ⟨34, _⟩ => ⟨S128x256x4, .f32⟩
  | .hbm, ⟨35, _⟩ => ⟨S128x256x4, .f32⟩
  | .hbm, ⟨36, _⟩ => ⟨S_, .i32⟩
  | .hbm, ⟨37, _⟩ => ⟨S_, .i32⟩
  | .hbm, ⟨38, _⟩ => ⟨S_, .f32⟩
  | .hbm, ⟨39, _⟩ => ⟨S128x256x4, .f32⟩
  | .hbm, ⟨40, _⟩ => ⟨S128x256x4, .f32⟩
  | .hbm, ⟨41, _⟩ => ⟨S_, .f32⟩
  | .hbm, ⟨42, _⟩ => ⟨S128x256x4, .f32⟩
  | .hbm, ⟨43, _⟩ => ⟨S128x256x4, .f32⟩
  | .hbm, ⟨44, _⟩ => ⟨S128x256x4, .i32⟩
  | .hbm, ⟨45, _⟩ => ⟨S_, .i32⟩
  | .hbm, ⟨46, _⟩ => ⟨S128x256x4, .i32⟩
  | .hbm, ⟨47, _⟩ => ⟨S128x256x4, .i1⟩
  | .hbm, ⟨48, _⟩ => ⟨S_, .i32⟩
  | .hbm, ⟨49, _⟩ => ⟨S128x256x4, .i32⟩
  | .hbm, ⟨50, _⟩ => ⟨S128x256x4, .i32⟩
  | .hbm, ⟨51, _⟩ => ⟨S128x256x4, .i32⟩
  | .hbm, ⟨52, _⟩ => ⟨S128x256x4x1, .i32⟩
  | .hbm, ⟨53, _⟩ => ⟨S128x256x4x64, .f32⟩
  | .hbm, ⟨54, _⟩ => ⟨S32768x256, .f32⟩
  | .hbm, ⟨55, _⟩ => ⟨S32768x1, .f32⟩
  | .hbm, ⟨56, _⟩ => ⟨S32768x256, .f32⟩
  | .hbm, ⟨57, _⟩ => ⟨S32768x256, .f32⟩
  | .hbm, ⟨58, _⟩ => ⟨S1x256x1x300, .f32⟩
  | .hbm, ⟨59, _⟩ => ⟨S128x256x1x300, .f32⟩
  | .hbm, ⟨60, _⟩ => ⟨S32768x300, .f32⟩
  | .hbm, ⟨61, _⟩ => ⟨S32768x256, .bf16⟩
  | .hbm, ⟨62, _⟩ => ⟨S32768x2048, .bf16⟩
  | .hbm, ⟨63, _⟩ => ⟨S32768x300, .bf16⟩
  | .hbm, ⟨64, _⟩ => ⟨S256x1024, .f32⟩
  | .hbm, ⟨65, _⟩ => ⟨S256x1024, .bf16⟩
  | .hbm, ⟨66, _⟩ => ⟨S2048x1024, .f32⟩
  | .hbm, ⟨67, _⟩ => ⟨S2048x1024, .bf16⟩
  | .hbm, ⟨68, _⟩ => ⟨S300x1024, .f32⟩
  | .hbm, ⟨69, _⟩ => ⟨S300x1024, .bf16⟩
  | .hbm, ⟨70, _⟩ => ⟨S1024x512, .bf16⟩
  | .hbm, ⟨71, _⟩ => ⟨S1x1024, .f32⟩
  | .hbm, ⟨72, _⟩ => ⟨S1x512, .f32⟩
  | .hbm, ⟨73, _⟩ => ⟨S32768x512, .f32⟩
  | .local _ .vmem, ⟨0, _⟩ => ⟨S256x256, .bf16⟩
  | .local _ .vmem, ⟨1, _⟩ => ⟨S256x256, .bf16⟩
  | .local _ .vmem, ⟨2, _⟩ => ⟨S256x2048, .bf16⟩
  | .local _ .vmem, ⟨3, _⟩ => ⟨S256x2048, .bf16⟩
  | .local _ .vmem, ⟨4, _⟩ => ⟨S256x300, .bf16⟩
  | .local _ .vmem, ⟨5, _⟩ => ⟨S256x300, .bf16⟩
  | .local _ .vmem, ⟨6, _⟩ => ⟨S256x1024, .bf16⟩
  | .local _ .vmem, ⟨7, _⟩ => ⟨S2048x1024, .bf16⟩
  | .local _ .vmem, ⟨8, _⟩ => ⟨S300x1024, .bf16⟩
  | .local _ .vmem, ⟨9, _⟩ => ⟨S1x1024, .f32⟩
  | .local _ .vmem, ⟨10, _⟩ => ⟨S1024x512, .bf16⟩
  | .local _ .vmem, ⟨11, _⟩ => ⟨S1x512, .f32⟩
  | .local _ .vmem, ⟨12, _⟩ => ⟨S256x512, .f32⟩
  | .local _ .vmem, ⟨13, _⟩ => ⟨S256x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_c_3 : Ref sig .tc := ⟨.hbm, 24, rfl⟩
abbrev main_v10 : Ref sig .tc := ⟨.hbm, 25, rfl⟩
abbrev main_v11 : Ref sig .tc := ⟨.hbm, 26, rfl⟩
abbrev main_c_4 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_5 : Ref sig .tc := ⟨.hbm, 33, rfl⟩
abbrev main_v17 : Ref sig .tc := ⟨.hbm, 34, rfl⟩
abbrev main_v18 : Ref sig .tc := ⟨.hbm, 35, rfl⟩
abbrev main_c_6 : Ref sig .tc := ⟨.hbm, 36, rfl⟩
abbrev main_c_7 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v19 : Ref sig .tc := ⟨.hbm, 43, rfl⟩
abbrev main_v20 : Ref sig .tc := ⟨.hbm, 44, rfl⟩
abbrev main_c_8 : Ref sig .tc := ⟨.hbm, 45, rfl⟩
abbrev main_v21 : Ref sig .tc := ⟨.hbm, 46, rfl⟩
abbrev main_v22 : Ref sig .tc := ⟨.hbm, 47, rfl⟩
abbrev main_c_9 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x300 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S300x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S32768 : S_.BroadcastsInDim S32768 (![] : Fin 0 → Fin S32768.rank)
  bcast_S_S16384 : S_.BroadcastsInDim S16384 (![] : Fin 0 → Fin S16384.rank)
  bcast_S16384_S16384x1_0 : S16384.BroadcastsInDim S16384x1 (![0] : Fin 1 → Fin S16384x1.rank)
  bcast_S_S32768x2048 : S_.BroadcastsInDim S32768x2048 (![] : Fin 0 → Fin S32768x2048.rank)
  bcast_S_S128x256x4 : S_.BroadcastsInDim S128x256x4 (![] : Fin 0 → Fin S128x256x4.rank)
  bcast_S128x256x4_S128x256x4x1_0_1_2 : S128x256x4.BroadcastsInDim S128x256x4x1 (![0, 1, 2] : Fin 3 → Fin S128x256x4x1.rank)
  shapeCasts_S128x256x4x64_S32768x256 : S128x256x4x64.ShapeCasts S32768x256
  bcast_S32768_S32768x1_0 : S32768.BroadcastsInDim S32768x1 (![0] : Fin 1 → Fin S32768x1.rank)
  bcast_S32768x1_S32768x256_0_1 : S32768x1.BroadcastsInDim S32768x256 (![0, 1] : Fin 2 → Fin S32768x256.rank)
  shapeCasts_S256x300_S1x256x1x300 : S256x300.ShapeCasts S1x256x1x300
  bcast_S1x256x1x300_S128x256x1x300_0_1_2_3 : S1x256x1x300.BroadcastsInDim S128x256x1x300 (![0, 1, 2, 3] : Fin 4 → Fin S128x256x1x300.rank)
  shapeCasts_S128x256x1x300_S32768x300 : S128x256x1x300.ShapeCasts S32768x300
  bitsLt_bf16_f32 : FTy.bits .bf16 < FTy.bits .f32
  slices_S2604x1024_S256x1024_0_0 : S2604x1024.Slices ![0, 0] S256x1024
  slices_S2604x1024_S2048x1024_256_0 : S2604x1024.Slices ![256, 0] S2048x1024
  slices_S2604x1024_S300x1024_2304_0 : S2604x1024.Slices ![2304, 0] S300x1024
  shapeCasts_S1024_S1x1024 : S1024.ShapeCasts S1x1024
  shapeCasts_S512_S1x512 : S512.ShapeCasts S1x512
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S256x300_S256x300_0_0 : ∀ a, (![0, 0] : Fin 2 → Nat) a + S256x300.size a ≤ S256x300.size a
  h_S256x300 : 0 < S256x300.numel
  shapeCasts_S256x300_S256x300 : S256x300.ShapeCasts S256x300
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S300x1024_S300x1024_0_0 : ∀ a, (![0, 0] : Fin 2 → Nat) a + S300x1024.size a ≤ S300x1024.size a
  h_S300x1024 : 0 < S300x1024.numel
  shapeCasts_S300x1024_S300x1024 : S300x1024.ShapeCasts S300x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S256x512_S256x512_0_0 : ∀ a, (![0, 0] : Fin 2 → Nat) a + S256x512.size a ≤ S256x512.size a
  h_S256x512 : 0 < S256x512.numel
  scatter_S32768_S16384x1_S16384_n_0_0_1_wf : ScatterDims.WF S32768 S16384x1 S16384 [] [0] [0] 1
  scatter_S32768x2048_S16384x1_S16384x2048_1_0_0_1_wf : ScatterDims.WF S32768x2048 S16384x1 S16384x2048 [1] [0] [0] 1
  gather_S225x64_S128x256x4x1_S128x256x4x64_3_0_n_n_0_3_164_wf : GatherDims.WF S225x64 S128x256x4x1 S128x256x4x64 [3] [0] [] [0] [] 3 ![1, 64]
  dot_S256x256_S256x1024_S256x1024_1_0_0_1_n_n_wf : DotDims.WF S256x256 S256x1024 S256x1024 [1] [0] [0] [1] [] []
  dot_S256x2048_S2048x1024_S256x1024_1_0_0_1_n_n_wf : DotDims.WF S256x2048 S2048x1024 S256x1024 [1] [0] [0] [1] [] []
  dot_S256x300_S300x1024_S256x1024_1_0_0_1_n_n_wf : DotDims.WF S256x300 S300x1024 S256x1024 [1] [0] [0] [1] [] []
  dot_S256x1024_S1024x512_S256x512_1_0_0_1_n_n_wf : DotDims.WF S256x1024 S1024x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S32768x256.size a
  hwx0_0 : ∀ i : grid0.Coords, EltTy.bits .bf16 = 32 ∨ (Rect.block (s := S32768x256) S256x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S32768x2048.size a
  hwx0_1 : ∀ i : grid0.Coords, EltTy.bits .bf16 = 32 ∨ (Rect.block (s := S32768x2048) S256x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x300.size a ≤ S32768x300.size a
  hwx0_2 : ∀ i : grid0.Coords, EltTy.bits .bf16 = 32 ∨ (Rect.block (s := S32768x300) S256x300.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1024.size a
  hwx0_3 : ∀ i : grid0.Coords, EltTy.bits .bf16 = 32 ∨ (Rect.block (s := S256x1024) S256x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S2048x1024.size a
  hwx0_4 : ∀ i : grid0.Coords, EltTy.bits .bf16 = 32 ∨ (Rect.block (s := S2048x1024) S2048x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S300x1024.size a ≤ S300x1024.size a
  hwx0_5 : ∀ i : grid0.Coords, EltTy.bits .bf16 = 32 ∨ (Rect.block (s := S300x1024) S300x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S1024x512.size a
  hwx0_7 : ∀ i : grid0.Coords, EltTy.bits .bf16 = 32 ∨ (Rect.block (s := S1024x512) S1024x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x512.size a ≤ S32768x512.size a
  hwx0_9 : ∀ i : grid0.Coords, EltTy.bits .f32 = 32 ∨ (Rect.block (s := S32768x512) S256x512.size (cc0_transform_9 i) (hinb0_9 i)).WholeWords (EltTy.packing .f32)

variable [Facts₀]

def scatter_S32768_S16384x1_S16384_n_0_0_1 : ScatterDims S32768 S16384x1 S16384 where
  updateWindowDims := []
  insertedWindowDims := [0]
  scatterDimsToOperandDims := [0]
  indexVectorDim := 1
  wf := scatter_S32768_S16384x1_S16384_n_0_0_1_wf
def scatter_S32768x2048_S16384x1_S16384x2048_1_0_0_1 : ScatterDims S32768x2048 S16384x1 S16384x2048 where
  updateWindowDims := [1]
  insertedWindowDims := [0]
  scatterDimsToOperandDims := [0]
  indexVectorDim := 1
  wf := scatter_S32768x2048_S16384x1_S16384x2048_1_0_0_1_wf
def gather_S225x64_S128x256x4x1_S128x256x4x64_3_0_n_n_0_3_164 : GatherDims S225x64 S128x256x4x1 S128x256x4x64 where
  offsetDims := [3]
  collapsedSliceDims := [0]
  operandBatchingDims := []
  startIndicesBatchingDims := []
  startIndexMap := [0]
  indexVectorDim := 3
  sliceSizes := ![1, 64]
  wf := gather_S225x64_S128x256x4x1_S128x256x4x64_3_0_n_n_0_3_164_wf
def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x300_S300x1024_S256x1024_1_0_0_1_n_n : DotDims S256x300 S300x1024 S256x1024 where
  lhsContracting := [1]
  rhsContracting := [0]
  lhsNonContracting := [0]
  rhsNonContracting := [1]
  lhsBatch := []
  rhsBatch := []
  wf := dot_S256x300_S300x1024_S256x1024_1_0_0_1_n_n_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf

abbrev win0_0 : Pipeline.Window sig grid0 :=
  Pipeline.Window.ofSpec (Memref.whole main_v35) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S256x300.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v39) S256x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41) S2048x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v43) S300x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v45) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v44) S1024x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v46) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v47) S256x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S128x256x4 : Shape := ⟨3, ![128, 256, 4]⟩
abbrev S225x64 : Shape := ⟨2, ![225, 64]⟩
abbrev S256x300 : Shape := ⟨2, ![256, 300]⟩
abbrev S2604x1024 : Shape := ⟨2, ![2604, 1024]⟩
abbrev S1024 : Shape := ⟨1, ![1024]⟩
abbrev S1024x512 : Shape := ⟨2, ![1024, 512]⟩
abbrev S512 : Shape := ⟨1, ![512]⟩
abbrev S16384 : Shape := ⟨1, ![16384]⟩
abbrev S_ : Shape := ⟨0, ![]⟩
abbrev S32768 : Shape := ⟨1, ![32768]⟩
abbrev S16384x1 : Shape := ⟨2, ![16384, 1]⟩
abbrev S32768x2048 : Shape := ⟨2, ![32768, 2048]⟩
abbrev S128x256x4x1 : Shape := ⟨4, ![128, 256, 4, 1]⟩
abbrev S128x256x4x64 : Shape := ⟨4, ![128, 256, 4, 64]⟩
abbrev S32768x256 : Shape := ⟨2, ![32768, 256]⟩
abbrev S32768x1 : Shape := ⟨2, ![32768, 1]⟩
abbrev S1x256x1x300 : Shape := ⟨4, ![1, 256, 1, 300]⟩
abbrev S128x256x1x300 : Shape := ⟨4, ![128, 256, 1, 300]⟩
abbrev S32768x300 : Shape := ⟨2, ![32768, 300]⟩
abbrev S32768x2604 : Shape := ⟨2, ![32768, 2604]⟩
abbrev S32768x1024 : Shape := ⟨2, ![32768, 1024]⟩
abbrev S1x1024 : Shape := ⟨2, ![1, 1024]⟩
abbrev S32768x512 : Shape := ⟨2, ![32768, 512]⟩
abbrev S1x512 : Shape := ⟨2, ![1, 512]⟩

abbrev nBuf : Space → Nat
  | .hbm => 76
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S128x256x4, .f32⟩
  | .hbm, ⟨2, _⟩ => ⟨S225x64, .f32⟩
  | .hbm, ⟨3, _⟩ => ⟨S256x300, .f32⟩
  | .hbm, ⟨4, _⟩ => ⟨S2604x1024, .f32⟩
  | .hbm, ⟨5, _⟩ => ⟨S1024, .f32⟩
  | .hbm, ⟨6, _⟩ => ⟨S1024x512, .f32⟩
  | .hbm, ⟨7, _⟩ => ⟨S512, .f32⟩
  | .hbm, ⟨8, _⟩ => ⟨S16384, .i32⟩
  | .hbm, ⟨9, _⟩ => ⟨S_, .f32⟩
  | .hbm, ⟨10, _⟩ => ⟨S32768, .f32⟩
  | .hbm, ⟨11, _⟩ => ⟨S_, .i32⟩
  | .hbm, ⟨12, _⟩ => ⟨S16384, .i32⟩
  | .hbm, ⟨13, _⟩ => ⟨S16384, .i1⟩
  | .hbm, ⟨14, _⟩ => ⟨S_, .i32⟩
  | .hbm, ⟨15, _⟩ => ⟨S16384, .i32⟩
  | .hbm, ⟨16, _⟩ => ⟨S16384, .i32⟩
  | .hbm, ⟨17, _⟩ => ⟨S16384, .i32⟩
  | .hbm, ⟨18, _⟩ => ⟨S16384x1, .i32⟩
  | .hbm, ⟨19, _⟩ => ⟨S_, .f32⟩
  | .hbm, ⟨20, _⟩ => ⟨S16384, .f32⟩
  | .hbm, ⟨21, _⟩ => ⟨S32768, .f32⟩
  | .hbm, ⟨22, _⟩ => ⟨S_, .f32⟩
  | .hbm, ⟨23, _⟩ => ⟨S32768x2048, .f32⟩
  | .hbm, ⟨24, _⟩ => ⟨S_, .i32⟩
  | .hbm, ⟨25, _⟩ => ⟨S16384, .i32⟩
  | .hbm, ⟨26, _⟩ => ⟨S16384, .i1⟩
  | .hbm, ⟨27, _⟩ => ⟨S_, .i32⟩
  | .hbm, ⟨28, _⟩ => ⟨S16384, .i32⟩
  | .hbm, ⟨29, _⟩ => ⟨S16384, .i32⟩
  | .hbm, ⟨30, _⟩ => ⟨S16384, .i32⟩
  | .hbm, ⟨31, _⟩ => ⟨S16384x1, .i32⟩
  | .hbm, ⟨32, _⟩ => ⟨S32768x2048, .f32⟩
  | .hbm, ⟨33, _⟩ => ⟨S_, .f32⟩
  | .hbm, ⟨34, _⟩ => ⟨S128x256x4, .f32⟩
  | .hbm, ⟨35, _⟩ => ⟨S128x256x4, .f32⟩
  | .hbm, ⟨36, _⟩ => ⟨S_, .i32⟩
  | .hbm, ⟨37, _⟩ => ⟨S_, .i32⟩
  | .hbm, ⟨38, _⟩ => ⟨S_, .f32⟩
  | .hbm, ⟨39, _⟩ => ⟨S128x256x4, .f32⟩
  | .hbm, ⟨40, _⟩ => ⟨S128x256x4, .f32⟩
  | .hbm, ⟨41, _⟩ => ⟨S_, .f32⟩
  | .hbm, ⟨42, _⟩ => ⟨S128x256x4, .f32⟩
  | .hbm, ⟨43, _⟩ => ⟨S128x256x4, .f32⟩
  | .hbm, ⟨44, _⟩ => ⟨S128x256x4, .i32⟩
  | .hbm, ⟨45, _⟩ => ⟨S_, .i32⟩
  | .hbm, ⟨46, _⟩ => ⟨S128x256x4, .i32⟩
  | .hbm, ⟨47, _⟩ => ⟨S128x256x4, .i1⟩
  | .hbm, ⟨48, _⟩ => ⟨S_, .i32⟩
  | .hbm, ⟨49, _⟩ => ⟨S128x256x4, .i32⟩
  | .hbm, ⟨50, _⟩ => ⟨S128x256x4, .i32⟩
  | .hbm, ⟨51, _⟩ => ⟨S128x256x4, .i32⟩
  | .hbm, ⟨52, _⟩ => ⟨S128x256x4x1, .i32⟩
  | .hbm, ⟨53, _⟩ => ⟨S128x256x4x64, .f32⟩
  | .hbm, ⟨54, _⟩ => ⟨S32768x256, .f32⟩
  | .hbm, ⟨55, _⟩ => ⟨S32768x1, .f32⟩
  | .hbm, ⟨56, _⟩ => ⟨S32768x256, .f32⟩
  | .hbm, ⟨57, _⟩ => ⟨S32768x256, .f32⟩
  | .hbm, ⟨58, _⟩ => ⟨S1x256x1x300, .f32⟩
  | .hbm, ⟨59, _⟩ => ⟨S128x256x1x300, .f32⟩
  | .hbm, ⟨60, _⟩ => ⟨S32768x300, .f32⟩
  | .hbm, ⟨61, _⟩ => ⟨S32768x2604, .f32⟩
  | .hbm, ⟨62, _⟩ => ⟨S32768x1024, .f32⟩
  | .hbm, ⟨63, _⟩ => ⟨S1x1024, .f32⟩
  | .hbm, ⟨64, _⟩ => ⟨S32768x1024, .f32⟩
  | .hbm, ⟨65, _⟩ => ⟨S32768x1024, .f32⟩
  | .hbm, ⟨66, _⟩ => ⟨S_, .f32⟩
  | .hbm, ⟨67, _⟩ => ⟨S32768x1024, .f32⟩
  | .hbm, ⟨68, _⟩ => ⟨S32768x1024, .f32⟩
  | .hbm, ⟨69, _⟩ => ⟨S32768x512, .f32⟩
  | .hbm, ⟨70, _⟩ => ⟨S1x512, .f32⟩
  | .hbm, ⟨71, _⟩ => ⟨S32768x512, .f32⟩
  | .hbm, ⟨72, _⟩ => ⟨S32768x512, .f32⟩
  | .hbm, ⟨73, _⟩ => ⟨S_, .f32⟩
  | .hbm, ⟨74, _⟩ => ⟨S32768x512, .f32⟩
  | .hbm, ⟨75, _⟩ => ⟨S32768x512, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_c_3 : Ref sig .tc := ⟨.hbm, 24, rfl⟩
abbrev main_v10 : Ref sig .tc := ⟨.hbm, 25, rfl⟩
abbrev main_v11 : Ref sig .tc := ⟨.hbm, 26, rfl⟩
abbrev main_c_4 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_5 : Ref sig .tc := ⟨.hbm, 33, rfl⟩
abbrev main_v17 : Ref sig .tc := ⟨.hbm, 34, rfl⟩
abbrev main_v18 : Ref sig .tc := ⟨.hbm, 35, rfl⟩
abbrev main_c_6 : Ref sig .tc := ⟨.hbm, 36, rfl⟩
abbrev main_c_7 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v19 : Ref sig .tc := ⟨.hbm, 43, rfl⟩
abbrev main_v20 : Ref sig .tc := ⟨.hbm, 44, rfl⟩
abbrev main_c_8 : Ref sig .tc := ⟨.hbm, 45, rfl⟩
abbrev main_v21 : Ref sig .tc := ⟨.hbm, 46, rfl⟩
abbrev main_v22 : Ref sig .tc := ⟨.hbm, 47, rfl⟩
abbrev main_c_9 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_call1_cst : Ref sig .tc := ⟨.hbm, 66, rfl⟩
abbrev main_call1_v0 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_call2_cst : Ref sig .tc := ⟨.hbm, 73, rfl⟩
abbrev main_call2_v0 : Ref sig .tc := ⟨.hbm, 74, rfl⟩
abbrev main_v45 : Ref sig .tc := ⟨.hbm, 75, rfl⟩

abbrev nD : Nat := 1
abbrev τ : Topo := Topo.v7x

variable {F : FTy → Type} [FloatOps F]

class Facts₀ : Prop where
  bcast_S_S32768 : S_.BroadcastsInDim S32768 (![] : Fin 0 → Fin S32768.rank)
  bcast_S_S16384 : S_.BroadcastsInDim S16384 (![] : Fin 0 → Fin S16384.rank)
  bcast_S16384_S16384x1_0 : S16384.BroadcastsInDim S16384x1 (![0] : Fin 1 → Fin S16384x1.rank)
  bcast_S_S32768x2048 : S_.BroadcastsInDim S32768x2048 (![] : Fin 0 → Fin S32768x2048.rank)
  bcast_S_S128x256x4 : S_.BroadcastsInDim S128x256x4 (![] : Fin 0 → Fin S128x256x4.rank)
  bcast_S128x256x4_S128x256x4x1_0_1_2 : S128x256x4.BroadcastsInDim S128x256x4x1 (![0, 1, 2] : Fin 3 → Fin S128x256x4x1.rank)
  shapeCasts_S128x256x4x64_S32768x256 : S128x256x4x64.ShapeCasts S32768x256
  bcast_S32768_S32768x1_0 : S32768.BroadcastsInDim S32768x1 (![0] : Fin 1 → Fin S32768x1.rank)
  bcast_S32768x1_S32768x256_0_1 : S32768x1.BroadcastsInDim S32768x256 (![0, 1] : Fin 2 → Fin S32768x256.rank)
  shapeCasts_S256x300_S1x256x1x300 : S256x300.ShapeCasts S1x256x1x300
  bcast_S1x256x1x300_S128x256x1x300_0_1_2_3 : S1x256x1x300.BroadcastsInDim S128x256x1x300 (![0, 1, 2, 3] : Fin 4 → Fin S128x256x1x300.rank)
  shapeCasts_S128x256x1x300_S32768x300 : S128x256x1x300.ShapeCasts S32768x300
  concatenates_S32768x256_S32768x2048_S32768x300_S32768x2604_d1 : Shape.Concatenates [S32768x256, S32768x2048, S32768x300] S32768x2604 1
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S_S32768x1024 : S_.BroadcastsInDim S32768x1024 (![] : Fin 0 → Fin S32768x1024.rank)
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  scatter_S32768_S16384x1_S16384_n_0_0_1_wf : ScatterDims.WF S32768 S16384x1 S16384 [] [0] [0] 1
  scatter_S32768x2048_S16384x1_S16384x2048_1_0_0_1_wf : ScatterDims.WF S32768x2048 S16384x1 S16384x2048 [1] [0] [0] 1
  gather_S225x64_S128x256x4x1_S128x256x4x64_3_0_n_n_0_3_164_wf : GatherDims.WF S225x64 S128x256x4x1 S128x256x4x64 [3] [0] [] [0] [] 3 ![1, 64]
  dot_S32768x2604_S2604x1024_S32768x1024_1_0_0_1_n_n_wf : DotDims.WF S32768x2604 S2604x1024 S32768x1024 [1] [0] [0] [1] [] []
  dot_S32768x1024_S1024x512_S32768x512_1_0_0_1_n_n_wf : DotDims.WF S32768x1024 S1024x512 S32768x512 [1] [0] [0] [1] [] []

variable [Facts₀]

def scatter_S32768_S16384x1_S16384_n_0_0_1 : ScatterDims S32768 S16384x1 S16384 where
  updateWindowDims := []
  insertedWindowDims := [0]
  scatterDimsToOperandDims := [0]
  indexVectorDim := 1
  wf := scatter_S32768_S16384x1_S16384_n_0_0_1_wf
def scatter_S32768x2048_S16384x1_S16384x2048_1_0_0_1 : ScatterDims S32768x2048 S16384x1 S16384x2048 where
  updateWindowDims := [1]
  insertedWindowDims := [0]
  scatterDimsToOperandDims := [0]
  indexVectorDim := 1
  wf := scatter_S32768x2048_S16384x1_S16384x2048_1_0_0_1_wf
def gather_S225x64_S128x256x4x1_S128x256x4x64_3_0_n_n_0_3_164 : GatherDims S225x64 S128x256x4x1 S128x256x4x64 where
  offsetDims := [3]
  collapsedSliceDims := [0]
  operandBatchingDims := []
  startIndicesBatchingDims := []
  startIndexMap := [0]
  indexVectorDim := 3
  sliceSizes := ![1, 64]
  wf := gather_S225x64_S128x256x4x1_S128x256x4x64_3_0_n_n_0_3_164_wf
def dot_S32768x2604_S2604x1024_S32768x1024_1_0_0_1_n_n : DotDims S32768x2604 S2604x1024 S32768x1024 where
  lhsContracting := [1]
  rhsContracting := [0]
  lhsNonContracting := [0]
  rhsNonContracting := [1]
  lhsBatch := []
  rhsBatch := []
  wf := dot_S32768x2604_S2604x1024_S32768x1024_1_0_0_1_n_n_wf
def dot_S32768x1024_S1024x512_S32768x512_1_0_0_1_n_n : DotDims S32768x1024 S1024x512 S32768x512 where
  lhsContracting := [1]
  rhsContracting := [0]
  lhsNonContracting := [0]
  rhsNonContracting := [1]
  lhsBatch := []
  rhsBatch := []
  wf := dot_S32768x1024_S1024x512_S32768x512_1_0_0_1_n_n_wf

class Facts : Prop extends Facts₀ where

variable [Facts]
-- ==== Proof.LibPlainDot.lean ====
/-
  A plain matrix product read entry by entry, at the extended reals.

  Both the tiled unit's `tpu.matmul` into a zero accumulator and the host's `dot_general` are, at the ideal
  values, the sum over the dot's contraction index of the operands' products. The contraction index is a
  one-axis multi-index whose shape is computed from the dimension numbers; for the plain product of an
  `M × K` matrix with a `K × N` one (contract the left operand's columns against the right operand's
  rows, no batch axis) that index is just a number below `K`, and entry `(p, q)` of the product is
  `∑ k < K, l (p, k) · r (k, q)` — for every `M`, `K`, `N`, so a block of rows and the whole array are
  read by one and the same lemma.
-/
import Idealize.ShloMosaic.PureOps.Ideal.Laws
import Idealize.ShloMosaic.Lib.ValueIdx

noncomputable section

namespace Cert.PlainDot

open Idealize.ShloMosaic Idealize.ShloMosaic.ValueIdx

/-- The dimension numbers of a plain product: the left operand's axis 1 contracted against the right
    operand's axis 0, rows from the left, columns from the right, no batch axis. -/
structure IsPlain {M K N : Nat} (d : DotDims ⟨2, ![M, K]⟩ ⟨2, ![K, N]⟩ ⟨2, ![M, N]⟩) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

variable {M K N : Nat}

/-- The sum over the contraction multi-index of a plain product, at entry `(p, q)`, is the sum over
    `k < K` of `l (p, k) · r (k, q)`: the one-axis contraction index is re-indexed by its coordinate, and
    the operand indices the dimension numbers compute are `(p, k)` and `(k, q)`. -/
theorem sum_contr (d : DotDims ⟨2, ![M, K]⟩ ⟨2, ![K, N]⟩ ⟨2, ![M, N]⟩) (h : IsPlain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  simp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hlc : d.lhsContracting = [1] := by subst hd; rfl
  have hrc : d.rhsContracting = [0] := by subst hd; rfl
  have hrank : d.contr.rank = 1 := by subst hd; rfl
  have hsize : d.contr.size ⟨0, by omega⟩ = K := by subst hd; rfl
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hrank hsize).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

/-- A `tpu.matmul` of a plain product into the zero accumulator, read at entry `(p, q)`. -/
theorem matmul_zero_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr d h l r p q)

/-- The host's `dot_general` of a plain product, read at entry `(p, q)`: the same sum. -/
theorem dotGeneral_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    Host.dotGeneral d prec l r (ix2 p q) = ∑ k : Fin K, l (ix2 p k) * r (ix2 k q) :=
  (Ideal.dotGeneral_apply d prec .single l r (ix2 p q)).trans (sum_contr d h l r p q)

end Cert.PlainDot

end
-- ==== Proof.LibTileRows.lean ====
/-
  Reading a tile of rows, operation by operation, at the extended reals.

  A two-axis array `X` of `M` rows is described by its rows: a family `xr p k` with `X (p, k) = xr p k`. Each lemma
  below takes such a description of an operation's operands and returns the description of its result, so that a
  chain of operations is read by composing the lemmas, never by rewriting inside a large term. Everything is stated
  for arbitrary extents, so a 4096-row tile and a 262144-row array are read by the same lemmas.

  At the extended reals a change of float format is the identity, a product into a zero accumulator is the plain
  sum of products, and the rectifier is the maximum with zero.
-/
import proofs.«126902_j52355651338246_2_alg».proof.Proof.LibPlainDot
import Idealize.ShloMosaic.Lib.ValueLayout
import Idealize.ShloMosaic.Lib.Pipeline.Value

noncomputable section

namespace Cert.TileRows

open Idealize.ShloMosaic Idealize.ShloMosaic.ValueIdx

variable {M K N : Nat}

/-- Row `p` of a two-axis array. -/
abbrev rowOf {M K : Nat} (X : (⟨2, ![M, K]⟩ : Shape).Idx → EReal) (p : Fin M) : Fin K → EReal := fun k => X (ix2 p k)
/-- A two-axis array as a matrix. -/
abbrev matOf {K N : Nat} (w : (⟨2, ![K, N]⟩ : Shape).Idx → EReal) : Fin K → Fin N → EReal := fun k q => w (ix2 k q)
/-- A one-row array as a row. -/
abbrev vecOf {N : Nat} (b : (⟨2, ![1, N]⟩ : Shape).Idx → EReal) : Fin N → EReal := fun q => b (ix2 (0 : Fin 1) q)
/-- A one-axis array as a row. -/
abbrev vec1 {N : Nat} (b : (⟨1, ![N]⟩ : Shape).Idx → EReal) : Fin N → EReal := fun q => b (ix1 q)

/-- A vector made a one-row matrix is, as a row, the vector. -/
theorem vecOf_cast {N : Nat} (a : (⟨1, ![N]⟩ : Shape).Idx → EReal) (h : (⟨1, ![N]⟩ : Shape).ShapeCasts ⟨2, ![1, N]⟩) :
    vecOf (shapeCast ⟨2, ![1, N]⟩ a h) = vec1 a := funext fun q => shapeCast_a_1a_apply a h 0 q

/-- A re-laying to the same shape changes nothing. -/
theorem cast_rows {φ : FTy} (X : FVec Ideal ⟨2, ![M, K]⟩ φ) (h : (⟨2, ![M, K]⟩ : Shape).ShapeCasts ⟨2, ![M, K]⟩)
    (xr : Fin M → Fin K → EReal) (hX : ∀ p k, X (ix2 p k) = xr p k) :
    ∀ p k, shapeCast ⟨2, ![M, K]⟩ X h (ix2 p k) = xr p k := fun p k => by
  rw [shapeCast_self]; exact hX p k

/-- A change of float format changes nothing. -/
theorem trunc_rows {φ ψ : FTy} (X : FVec Ideal ⟨2, ![M, K]⟩ φ) (h : ψ.bits < φ.bits)
    (xr : Fin M → Fin K → EReal) (hX : ∀ p k, X (ix2 p k) = xr p k) :
    ∀ p k, (truncf ψ X h : FVec Ideal ⟨2, ![M, K]⟩ ψ) (ix2 p k) = xr p k := fun p k => hX p k

/-- A plain product of a tile of rows with a re-laid `K × N` matrix, into the zero accumulator: row `p` of the result
    is the row `p` of the tile times the matrix. -/
theorem mm_rows {φ₁ φ₂ : FTy} (d : DotDims ⟨2, ![M, K]⟩ ⟨2, ![K, N]⟩ ⟨2, ![M, N]⟩) (hd : Cert.PlainDot.IsPlain d)
    (prec : Option ContractPrecision) (X : FVec Ideal ⟨2, ![M, K]⟩ φ₁) (w : FVec Ideal ⟨2, ![K, N]⟩ φ₂)
    (hw : (⟨2, ![K, N]⟩ : Shape).ShapeCasts ⟨2, ![K, N]⟩)
    (xr : Fin M → Fin K → EReal) (hX : ∀ p k, X (ix2 p k) = xr p k) :
    ∀ p q, matmul d prec X (shapeCast ⟨2, ![K, N]⟩ w hw) (constant ⟨2, ![M, N]⟩ .f32 0x00000000#32) (ix2 p q)
      = ∑ k : Fin K, xr p k * w (ix2 k q) := fun p q => by
  refine (Ideal.matmul_constant_zero_apply d prec X _ (ix2 p q)).trans ?_
  refine (Cert.PlainDot.sum_contr d hd X (shapeCast ⟨2, ![K, N]⟩ w hw) p q).trans ?_
  refine Finset.sum_congr rfl fun k _ => ?_
  rw [hX p k, shapeCast_self]

/-- Adding a one-row bias, re-laid and spread over the rows. -/
theorem bias_rows (Y : FVec Ideal ⟨2, ![M, N]⟩ .f32) (b : FVec Ideal ⟨2, ![1, N]⟩ .f32)
    (hb : (⟨2, ![1, N]⟩ : Shape).ShapeCasts ⟨2, ![1, N]⟩) (hbc : (⟨2, ![1, N]⟩ : Shape).Broadcasts ⟨2, ![M, N]⟩)
    (yr : Fin M → Fin N → EReal) (hY : ∀ p q, Y (ix2 p q) = yr p q) :
    ∀ p q, addf Y (broadcastTo ⟨2, ![M, N]⟩ (shapeCast ⟨2, ![1, N]⟩ b hb) hbc) (ix2 p q) = yr p q + b (ix2 (0 : Fin 1) q) := fun p q => by
  rw [addf_apply, hY p q, broadcastTo_1b_ab_apply, shapeCast_self]

/-- Adding two tiles. -/
theorem add_rows (Y Z : FVec Ideal ⟨2, ![M, N]⟩ .f32) (yr zr : Fin M → Fin N → EReal)
    (hY : ∀ p q, Y (ix2 p q) = yr p q) (hZ : ∀ p q, Z (ix2 p q) = zr p q) :
    ∀ p q, addf Y Z (ix2 p q) = yr p q + zr p q := fun p q => by
  rw [addf_apply, hY p q, hZ p q]

/-- The rectifier against a splat of the zero word. -/
theorem relu_rows (Y : FVec Ideal ⟨2, ![M, N]⟩ .f32) (yr : Fin M → Fin N → EReal) (hY : ∀ p q, Y (ix2 p q) = yr p q) :
    ∀ p q, maximumf Y (broadcast ⟨2, ![M, N]⟩ (Scalar.ofBits (F := Ideal) .f32 0x00000000#32)) (ix2 p q) = max (yr p q) 0 := fun p q => by
  rw [maximumf_apply, hY p q, broadcast_apply]
  show max (yr p q) (Ideal.ofBits .f32 0x00000000#32) = _
  rw [Ideal.ofBits_zero_f32]

/-- The rectifier against another tile known to be zero. -/
theorem relu_rows_of (Y Z : FVec Ideal ⟨2, ![M, N]⟩ .f32) (yr : Fin M → Fin N → EReal) (hY : ∀ p q, Y (ix2 p q) = yr p q)
    (hZ : ∀ p q, Z (ix2 p q) = 0) :
    ∀ p q, maximumf Y Z (ix2 p q) = max (yr p q) 0 := fun p q => by
  rw [maximumf_apply, hY p q, hZ p q]

/-- A splat of the zero word is zero everywhere. -/
theorem zero_rows : ∀ (p : Fin M) (q : Fin N), (broadcast ⟨2, ![M, N]⟩ (Scalar.ofBits (F := Ideal) .f32 0x00000000#32) : FVec Ideal ⟨2, ![M, N]⟩ .f32) (ix2 p q) = 0 := fun p q => by
  rw [broadcast_apply]
  show Ideal.ofBits .f32 0x00000000#32 = _
  rw [Ideal.ofBits_zero_f32]

/-- Columns `o … o + m − 1` cut out of a tile. -/
theorem cols_rows {m : Nat} (o : Nat) (Y : FVec Ideal ⟨2, ![M, N]⟩ .f32) (h : (⟨2, ![M, N]⟩ : Shape).Slices ![0, o] ⟨2, ![M, m]⟩)
    (hle : o + m ≤ N) (yr : Fin M → Fin N → EReal) (hY : ∀ p q, Y (ix2 p q) = yr p q) :
    ∀ (p : Fin M) (j : Fin m), extractStridedSlice ⟨2, ![M, m]⟩ ![0, o] Y h (ix2 p j) = yr p ⟨o + j.val, by omega⟩ := fun p j => by
  rw [slice2_axis1_apply o Y h p j ⟨o + j.val, by omega⟩ rfl]; exact hY p _

/-- Two tiles set side by side along the columns: row `p` of the result is row `p` of the first followed by row `p` of
    the second. -/
theorem concat_rows {A B C : Nat} (hC : A + B = C) (Y : (⟨2, ![M, A]⟩ : Shape).Idx → EReal) (Z : (⟨2, ![M, B]⟩ : Shape).Idx → EReal)
    (h : Shape.Concatenates [(⟨2, ![M, A]⟩ : Shape), ⟨2, ![M, B]⟩] ⟨2, ![M, C]⟩ (1 : Fin 2))
    (yr : Fin M → Fin A → EReal) (zr : Fin M → Fin B → EReal)
    (hY : ∀ p k, Y (ix2 p k) = yr p k) (hZ : ∀ p k, Z (ix2 p k) = zr p k) :
    ∀ (p : Fin M) (j : Fin C), concatenate ⟨2, ![M, C]⟩ (1 : Fin 2) [⟨⟨2, ![M, A]⟩, Y⟩, ⟨⟨2, ![M, B]⟩, Z⟩] h (ix2 p j)
      = Fin.append (yr p) (zr p) (Fin.cast hC.symm j) := by
  intro p j
  by_cases hj : j.val < A
  · have e1 := concatenate_pair_apply_left (1 : Fin 2) Y Z h (ix2 p j) rfl (ix2 p ⟨j.val, hj⟩)
      (fun b => by match b with | ⟨0, _⟩ => rfl | ⟨1, _⟩ => rfl)
    rw [e1, hY]
    have e : Fin.cast hC.symm j = Fin.castAdd B ⟨j.val, hj⟩ := Fin.ext rfl
    rw [e, Fin.append_left]
  · have hjB : j.val - A < B := by have := j.isLt; omega
    have e1 := concatenate_pair_apply_right (1 : Fin 2) Y Z h (ix2 p j) rfl rfl (ix2 p ⟨j.val - A, hjB⟩)
      (fun b hb => by match b with | ⟨0, _⟩ => rfl | ⟨1, _⟩ => exact absurd rfl hb)
      (by show (j.val - A) + A = j.val; omega)
    rw [e1, hZ]
    have e : Fin.cast hC.symm j = Fin.natAdd A ⟨j.val - A, hjB⟩ := Fin.ext (by show j.val = A + (j.val - A); omega)
    rw [e, Fin.append_right]

end Cert.TileRows

end
-- ==== Proof.LibJoinedRows.lean ====
/-
  Rows made of two parts, and a few operations read row by row, on the extended reals.

  `joined hC f g` is the row `f` (width `A`) followed by the row `g` (width `B`), indexed by the total width `C = A + B`.
  A sum over a joined row against a row of weights splits into the sum over the first part plus the sum over the
  second part (`sum_append_mul`): this is what makes a product computed as two partial products ("split K") equal to
  the product of the concatenated operand. It uses only commutativity and associativity of addition, so it holds on the
  extended reals without any finiteness assumption. Also here: an entry of a joined row in either part
  (`joined_left`, `joined_right`); two flat arrays concatenated, read at an index (`concat_flat`); a flat array made a
  one-column matrix (`col_apply`); and the logistic, the hyperbolic tangent and the product of tiles read entry by
  entry from a description of their operands by rows (`logistic_rows`, `tanh_rows`, `mul_rows`), for any extents.
-/
import Idealize.ShloMosaic.PureOps.Ideal
import Idealize.ShloMosaic.Lib.ValueIdx
import Idealize.ShloMosaic.Lib.Pipeline.Value
import Idealize.ShloMosaic.Lib.ValueLayout

noncomputable section

open scoped BigOperators

namespace Cert.JoinedRows

open Idealize.ShloMosaic Idealize.ShloMosaic.ValueIdx

/-- A row `f` followed by a row `g`, indexed by the total width. -/
abbrev joined {A B C : Nat} (hC : C = A + B) (f : Fin A → EReal) (g : Fin B → EReal) : Fin C → EReal :=
  fun k => Fin.append f g (Fin.cast hC k)

/-- A sum over a joined row splits: the first part against the first weights plus the second part against the rest. -/
theorem sum_append_mul {A B C : Nat} (hC : C = A + B) (f : Fin A → EReal) (g : Fin B → EReal) (w : Fin C → EReal) :
    ∑ k : Fin C, joined hC f g k * w k
      = (∑ k : Fin A, f k * w ⟨k.val, by omega⟩) + ∑ k : Fin B, g k * w ⟨A + k.val, by omega⟩ := by
  subst hC
  rw [Fin.sum_univ_add]
  congr 1
  · refine Finset.sum_congr rfl fun k _ => ?_
    show Fin.append f g (Fin.castAdd B k) * w (Fin.castAdd B k) = _
    rw [Fin.append_left]
    rfl
  · refine Finset.sum_congr rfl fun k _ => ?_
    show Fin.append f g (Fin.natAdd A k) * w (Fin.natAdd A k) = _
    rw [Fin.append_right]
    rfl

/-- An entry of a joined row in its first part. -/
theorem joined_left {A B C : Nat} (hC : C = A + B) (f : Fin A → EReal) (g : Fin B → EReal) (j : Fin C) (k : Fin A)
    (hj : j.val = k.val) : joined hC f g j = f k := by
  subst hC
  have e : Fin.cast rfl j = Fin.castAdd B k := Fin.ext hj
  show Fin.append f g (Fin.cast rfl j) = f k
  rw [e, Fin.append_left]

/-- An entry of a joined row in its second part. -/
theorem joined_right {A B C : Nat} (hC : C = A + B) (f : Fin A → EReal) (g : Fin B → EReal) (j : Fin C) (k : Fin B)
    (hj : j.val = A + k.val) : joined hC f g j = g k := by
  subst hC
  have e : Fin.cast rfl j = Fin.natAdd A k := Fin.ext hj
  show Fin.append f g (Fin.cast rfl j) = g k
  rw [e, Fin.append_right]

/-- Two flat arrays concatenated: entry `j` is the joined row at `j`. -/
theorem concat_flat {A B C : Nat} (hC : C = A + B) (Y : (⟨1, ![A]⟩ : Shape).Idx → EReal) (Z : (⟨1, ![B]⟩ : Shape).Idx → EReal)
    (h : Shape.Concatenates [(⟨1, ![A]⟩ : Shape), ⟨1, ![B]⟩] ⟨1, ![C]⟩ (0 : Fin 1)) (j : Fin C) :
    concatenate ⟨1, ![C]⟩ (0 : Fin 1) [⟨⟨1, ![A]⟩, Y⟩, ⟨⟨1, ![B]⟩, Z⟩] h (ix1 j)
      = joined hC (fun k => Y (ix1 k)) (fun k => Z (ix1 k)) j := by
  by_cases hj : j.val < A
  · have e1 := concatenate_pair_apply_left (0 : Fin 1) Y Z h (ix1 j) rfl (ix1 ⟨j.val, hj⟩)
      (fun b => by match b with | ⟨0, _⟩ => rfl)
    rw [e1]
    exact (joined_left hC (fun k => Y (ix1 k)) (fun k => Z (ix1 k)) j ⟨j.val, hj⟩ rfl).symm
  · have hjB : j.val - A < B := by have := j.isLt; omega
    have e1 := concatenate_pair_apply_right (0 : Fin 1) Y Z h (ix1 j) rfl rfl (ix1 ⟨j.val - A, hjB⟩)
      (fun b hb => by match b with | ⟨0, _⟩ => exact absurd rfl hb)
      (by show (j.val - A) + A = j.val; omega)
    rw [e1]
    exact (joined_right hC (fun k => Y (ix1 k)) (fun k => Z (ix1 k)) j ⟨j.val - A, hjB⟩ (by show j.val = A + (j.val - A); omega)).symm

/-- A flat array made a one-column matrix reads, at `(r, u)`, the array at `r`. -/
theorem col_apply {α : Type} {a : Nat} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

section Rows
variable {M N : Nat}

/-- The logistic of a tile, entry by entry. -/
theorem logistic_rows (Y : FVec Ideal ⟨2, ![M, N]⟩ .f32) (yr : Fin M → Fin N → EReal) (hY : ∀ p q, Y (ix2 p q) = yr p q) :
    ∀ p q, logistic Y (ix2 p q) = Ideal.logistic (yr p q) := fun p q => congrArg Ideal.logistic (hY p q)

/-- The hyperbolic tangent of a tile, entry by entry. -/
theorem tanh_rows (Y : FVec Ideal ⟨2, ![M, N]⟩ .f32) (yr : Fin M → Fin N → EReal) (hY : ∀ p q, Y (ix2 p q) = yr p q) :
    ∀ p q, tanh Y (ix2 p q) = Ideal.tanh (yr p q) := fun p q => congrArg Ideal.tanh (hY p q)

/-- The product of two tiles, entry by entry. -/
theorem mul_rows (Y Z : FVec Ideal ⟨2, ![M, N]⟩ .f32) (yr zr : Fin M → Fin N → EReal)
    (hY : ∀ p q, Y (ix2 p q) = yr p q) (hZ : ∀ p q, Z (ix2 p q) = zr p q) :
    ∀ p q, mulf Y Z (ix2 p q) = yr p q * zr p q := fun p q => by rw [mulf_apply, hY p q, hZ p q]

end Rows

end Cert.JoinedRows

end
-- ==== Proof.LibThreeParts.lean ====
/-
  Rows made of three parts, on the extended reals.

  `three hD f g h` is the row `f` (width `A`), then `g` (width `B`), then `h` (width `C`), indexed by the total width
  `D = A + B + C`.  Two facts are proved about it, for any extents.

  * `concat3_rows`: three two-axis arrays with the same number of rows, set side by side along the columns, have as
    their row `p` the three rows `p` joined.
  * `sum_three_mul`: a sum over a three-part row against a row of weights is the sum over the first part, plus the sum
    over the second part, plus the sum over the third part, each against its own stretch of the weights.  This is the
    law that makes a product computed as three partial products over three row blocks of the weight matrix equal to the
    one product of the concatenated operand with the whole matrix.  It only regroups a finite sum, so it holds on the
    extended reals with no finiteness assumption.
-/
import proofs.«126902_j52355651338246_2_alg».proof.Proof.LibJoinedRows

noncomputable section

open scoped BigOperators

namespace Cert.ThreeParts

open Idealize.ShloMosaic Idealize.ShloMosaic.ValueIdx Cert.JoinedRows

/-- A row `f`, then a row `g`, then a row `h`, indexed by the total width. -/
abbrev three {A B C D : Nat} (hD : D = A + B + C) (f : Fin A → EReal) (g : Fin B → EReal) (h : Fin C → EReal) :
    Fin D → EReal :=
  joined hD (joined (rfl : A + B = A + B) f g) h

/-- An entry of a three-part row in its first part. -/
theorem three_first {A B C D : Nat} (hD : D = A + B + C) (f : Fin A → EReal) (g : Fin B → EReal) (h : Fin C → EReal)
    (j : Fin D) (k : Fin A) (hj : j.val = k.val) : three hD f g h j = f k := by
  have hk : k.val < A + B := by have := k.isLt; omega
  rw [three, joined_left hD (joined rfl f g) h j ⟨k.val, hk⟩ hj]
  exact joined_left rfl f g ⟨k.val, hk⟩ k rfl

/-- An entry of a three-part row in its second part. -/
theorem three_second {A B C D : Nat} (hD : D = A + B + C) (f : Fin A → EReal) (g : Fin B → EReal) (h : Fin C → EReal)
    (j : Fin D) (k : Fin B) (hj : j.val = A + k.val) : three hD f g h j = g k := by
  have hk : A + k.val < A + B := by have := k.isLt; omega
  rw [three, joined_left hD (joined rfl f g) h j ⟨A + k.val, hk⟩ hj]
  exact joined_right rfl f g ⟨A + k.val, hk⟩ k rfl

/-- An entry of a three-part row in its third part. -/
theorem three_third {A B C D : Nat} (hD : D = A + B + C) (f : Fin A → EReal) (g : Fin B → EReal) (h : Fin C → EReal)
    (j : Fin D) (k : Fin C) (hj : j.val = A + B + k.val) : three hD f g h j = h k :=
  joined_right hD (joined rfl f g) h j k hj

/-- A sum over a three-part row against weights: the three partial sums, each against its own stretch of the weights. -/
theorem sum_three_mul {A B C D : Nat} (hD : D = A + B + C) (f : Fin A → EReal) (g : Fin B → EReal) (h : Fin C → EReal)
    (w : Fin D → EReal) :
    ∑ k : Fin D, three hD f g h k * w k
      = ((∑ k : Fin A, f k * w ⟨k.val, by omega⟩) + ∑ k : Fin B, g k * w ⟨A + k.val, by omega⟩)
        + ∑ k : Fin C, h k * w ⟨A + B + k.val, by omega⟩ := by
  rw [three, sum_append_mul hD (joined rfl f g) h w]
  congr 1
  exact sum_append_mul (rfl : A + B = A + B) f g (fun k => w ⟨k.val, by omega⟩)

/-- Three tiles set side by side along the columns: row `p` of the result is the three rows `p` joined. -/
theorem concat3_rows {M A B C D : Nat} (hD : D = A + B + C)
    (X : (⟨2, ![M, A]⟩ : Shape).Idx → EReal) (Y : (⟨2, ![M, B]⟩ : Shape).Idx → EReal) (Z : (⟨2, ![M, C]⟩ : Shape).Idx → EReal)
    (hc : Shape.Concatenates [(⟨2, ![M, A]⟩ : Shape), ⟨2, ![M, B]⟩, ⟨2, ![M, C]⟩] ⟨2, ![M, D]⟩ (1 : Fin 2))
    (xr : Fin M → Fin A → EReal) (yr : Fin M → Fin B → EReal) (zr : Fin M → Fin C → EReal)
    (hX : ∀ p k, X (ix2 p k) = xr p k) (hY : ∀ p k, Y (ix2 p k) = yr p k) (hZ : ∀ p k, Z (ix2 p k) = zr p k) :
    ∀ (p : Fin M) (j : Fin D),
      concatenate ⟨2, ![M, D]⟩ (1 : Fin 2) [⟨⟨2, ![M, A]⟩, X⟩, ⟨⟨2, ![M, B]⟩, Y⟩, ⟨⟨2, ![M, C]⟩, Z⟩] hc (ix2 p j)
        = three hD (xr p) (yr p) (zr p) j := by
  intro p j
  have hjD := j.isLt
  by_cases h1 : j.val < A
  · rw [concatenate_apply_piece (t := ⟨2, ![M, D]⟩) (1 : Fin 2) ([⟨⟨2, ![M, A]⟩, X⟩, ⟨⟨2, ![M, B]⟩, Y⟩, ⟨⟨2, ![M, C]⟩, Z⟩] : List ((s : Shape) × (s.Idx → EReal))) hc (ix2 p j) 0 (by show (0 : Nat) < 3; omega) ⟨2, ![M, A]⟩ X rfl rfl 0 rfl
      (ix2 p ⟨j.val, h1⟩)
      (fun b hb => by match b with | ⟨0, _⟩ => rfl | ⟨1, _⟩ => exact absurd rfl hb)
      (by show 0 + j.val = j.val; omega)]
    rw [hX]
    exact (three_first hD (xr p) (yr p) (zr p) j ⟨j.val, h1⟩ rfl).symm
  · by_cases h2 : j.val < A + B
    · have hk : j.val - A < B := by omega
      rw [concatenate_apply_piece (t := ⟨2, ![M, D]⟩) (1 : Fin 2) ([⟨⟨2, ![M, A]⟩, X⟩, ⟨⟨2, ![M, B]⟩, Y⟩, ⟨⟨2, ![M, C]⟩, Z⟩] : List ((s : Shape) × (s.Idx → EReal))) hc (ix2 p j) 1 (by show (1 : Nat) < 3; omega) ⟨2, ![M, B]⟩ Y rfl rfl A
        (by show A + 0 = A; rfl) (ix2 p ⟨j.val - A, hk⟩)
        (fun b hb => by match b with | ⟨0, _⟩ => rfl | ⟨1, _⟩ => exact absurd rfl hb)
        (by show A + (j.val - A) = j.val; omega)]
      rw [hY]
      exact (three_second hD (xr p) (yr p) (zr p) j ⟨j.val - A, hk⟩ (by show j.val = A + (j.val - A); omega)).symm
    · have hk : j.val - (A + B) < C := by omega
      rw [concatenate_apply_piece (t := ⟨2, ![M, D]⟩) (1 : Fin 2) ([⟨⟨2, ![M, A]⟩, X⟩, ⟨⟨2, ![M, B]⟩, Y⟩, ⟨⟨2, ![M, C]⟩, Z⟩] : List ((s : Shape) × (s.Idx → EReal))) hc (ix2 p j) 2 (by show (2 : Nat) < 3; omega) ⟨2, ![M, C]⟩ Z rfl rfl (A + B)
        (by show A + (B + 0) = A + B; rfl) (ix2 p ⟨j.val - (A + B), hk⟩)
        (fun b hb => by match b with | ⟨0, _⟩ => rfl | ⟨1, _⟩ => exact absurd rfl hb)
        (by show A + B + (j.val - (A + B)) = j.val; omega)]
      rw [hZ]
      exact (three_third hD (xr p) (yr p) (zr p) j ⟨j.val - (A + B), hk⟩
        (by show j.val = A + B + (j.val - (A + B)); omega)).symm

end Cert.ThreeParts

end
-- ==== Proof.Mlp.lean ====
/-
  The two-layer rectified perceptron on a row of three joined parts, on the extended reals.

  A row of features is made of three parts `f | g | h` of widths `A`, `B`, `C` (`D = A + B + C`).  The first layer
  multiplies it by a `D × H` matrix, adds a bias and rectifies; the second multiplies by an `H × O` matrix, adds a bias
  and rectifies.  Two ways of computing the first layer are set side by side:

  * `layer` on the joined row: one sum over all `D` columns;
  * `splitRow`: three partial sums, each part against its own block of rows of the weight matrix — rows `0 … A−1`,
    `A … A+B−1`, `A+B … D−1` — added up.

  They are the same number (`splitRow_eq`): a finite sum over `D = A + B + C` terms taken in three consecutive
  stretches.  Only the grouping of the additions differs, so the equality holds on the extended reals whatever the
  entries are, infinite or not.
-/
import proofs.«126902_j52355651338246_2_alg».proof.Proof.LibThreeParts

noncomputable section

open scoped BigOperators

namespace Cert.Mlp

open Cert.ThreeParts

/-- One rectified affine layer applied to a row: entry `j` is `max (∑ k, x k · w k j + b j) 0`. -/
def layer {K N : Nat} (x : Fin K → EReal) (w : Fin K → Fin N → EReal) (b : Fin N → EReal) : Fin N → EReal :=
  fun j => max ((∑ k : Fin K, x k * w k j) + b j) 0

/-- The two layers computed with the first product split over the three parts of the row, each part against its own
    block `wa`, `wb`, `wc` of rows of the first weight matrix. -/
def splitRow {A B C H O : Nat} (f : Fin A → EReal) (g : Fin B → EReal) (h : Fin C → EReal)
    (wa : Fin A → Fin H → EReal) (wb : Fin B → Fin H → EReal) (wc : Fin C → Fin H → EReal) (b1 : Fin H → EReal)
    (w2 : Fin H → Fin O → EReal) (b2 : Fin O → EReal) : Fin O → EReal :=
  fun q => max ((∑ j : Fin H,
      max ((((∑ k : Fin A, f k * wa k j) + ∑ k : Fin B, g k * wb k j) + ∑ k : Fin C, h k * wc k j) + b1 j) 0 * w2 j q)
    + b2 q) 0

/-- `splitRow` respects equality of each of its arguments. -/
theorem splitRow_congr {A B C H O : Nat} {f f' : Fin A → EReal} {g g' : Fin B → EReal} {h h' : Fin C → EReal}
    {wa wa' : Fin A → Fin H → EReal} {wb wb' : Fin B → Fin H → EReal} {wc wc' : Fin C → Fin H → EReal}
    {b1 b1' : Fin H → EReal} {w2 w2' : Fin H → Fin O → EReal} {b2 b2' : Fin O → EReal} {q q' : Fin O}
    (hf : f = f') (hg : g = g') (hh : h = h') (ha : wa = wa') (hb : wb = wb') (hc : wc = wc') (h1 : b1 = b1')
    (h2 : w2 = w2') (h3 : b2 = b2') (hq : q = q') :
    splitRow f g h wa wb wc b1 w2 b2 q = splitRow f' g' h' wa' wb' wc' b1' w2' b2' q' := by
  subst hf hg hh ha hb hc h1 h2 h3 hq; rfl

/-- The split computation is the two layers applied to the joined row, when the three blocks are the three
    consecutive stretches of rows of one `D × H` matrix `w1`. -/
theorem splitRow_eq {A B C D H O : Nat} (hD : D = A + B + C) (f : Fin A → EReal) (g : Fin B → EReal) (h : Fin C → EReal)
    (w1 : Fin D → Fin H → EReal) (b1 : Fin H → EReal) (w2 : Fin H → Fin O → EReal) (b2 : Fin O → EReal) :
    splitRow f g h (fun k => w1 ⟨k.val, by omega⟩) (fun k => w1 ⟨A + k.val, by omega⟩)
        (fun k => w1 ⟨A + B + k.val, by omega⟩) b1 w2 b2
      = layer (layer (three hD f g h) w1 b1) w2 b2 := by
  funext q
  unfold splitRow layer
  have e : ∀ j : Fin H,
      ((∑ k : Fin A, f k * w1 ⟨k.val, by omega⟩ j) + ∑ k : Fin B, g k * w1 ⟨A + k.val, by omega⟩ j)
          + ∑ k : Fin C, h k * w1 ⟨A + B + k.val, by omega⟩ j
        = ∑ k : Fin D, three hD f g h k * w1 k j :=
    fun j => (sum_three_mul hD f g h (fun k => w1 k j)).symm
  simp only [e]

end Cert.Mlp

end
-- ==== Proof.KernelTile.lean ====
/-
  One grid step of the kernel, read entry by entry at the extended reals.

  At a grid step the body holds a 256-row block of each of the three feature arrays (widths 256, 2048, 300), the three
  blocks of rows of the first weight matrix (256, 2048 and 300 rows of 1024 columns), the first bias as a one-row
  matrix, the second weight matrix (1024 × 512) and the second bias as a one-row matrix.  It multiplies each feature
  block by its weight block into a zero accumulator, adds the three products and the bias, rectifies, changes the float
  format (nothing, at the extended reals), multiplies by the second matrix, adds the second bias and rectifies again.
  Entry `(p, q)` of what it stores is therefore `Mlp.splitRow` of the three rows `p` of the feature blocks.
-/
import proofs.«126902_j52355651338246_2_alg».proof.Proof.Gen.KernelIdeal.Skeleton
import proofs.«126902_j52355651338246_2_alg».proof.Proof.LibTileRows
import proofs.«126902_j52355651338246_2_alg».proof.Proof.Mlp

noncomputable section

namespace Cert.KernelIdeal.Tile

open Cert.KernelIdeal Cert.KernelIdeal.Gen Idealize.ShloMosaic Idealize.ShloMosaic.ValueIdx
open Cert.TileRows

/-- Each of the body's four products is a plain one: columns of the left operand against rows of the right. -/
theorem plain_poe : Cert.PlainDot.IsPlain dot_S256x256_S256x1024_S256x1024_1_0_0_1_n_n := ⟨rfl, rfl, rfl, rfl, rfl, rfl⟩
theorem plain_vis : Cert.PlainDot.IsPlain dot_S256x2048_S2048x1024_S256x1024_1_0_0_1_n_n := ⟨rfl, rfl, rfl, rfl, rfl, rfl⟩
theorem plain_glv : Cert.PlainDot.IsPlain dot_S256x300_S300x1024_S256x1024_1_0_0_1_n_n := ⟨rfl, rfl, rfl, rfl, rfl, rfl⟩
theorem plain_out : Cert.PlainDot.IsPlain dot_S256x1024_S1024x512_S256x512_1_0_0_1_n_n := ⟨rfl, rfl, rfl, rfl, rfl, rfl⟩

/-- The stored tile at `(p, q)`: the two layers with the first product split over the three feature blocks, applied to
    the three rows `p`. -/
theorem pay_apply (x0 : FVec Ideal S256x256 .bf16) (x1 : FVec Ideal S256x2048 .bf16) (x2 : FVec Ideal S256x300 .bf16)
    (x3 : FVec Ideal S256x1024 .bf16) (x4 : FVec Ideal S2048x1024 .bf16) (x5 : FVec Ideal S300x1024 .bf16)
    (x6 : FVec Ideal S1x1024 .f32) (x7 : FVec Ideal S1024x512 .bf16) (x8 : FVec Ideal S1x512 .f32)
    (p : Fin 256) (q : Fin 512) :
    k0_pay1 (F := Ideal) x0 x1 x2 x3 x4 x5 x6 x7 x8 (ix2 p q)
      = Cert.Mlp.splitRow (rowOf x0 p) (rowOf x1 p) (rowOf x2 p) (matOf x3) (matOf x4) (matOf x5) (vecOf x6) (matOf x7)
          (vecOf x8) q := by
  -- the three feature blocks, re-laid to their own shapes
  have r1 := cast_rows (φ := .bf16) x0 shapeCasts_S256x256_S256x256 (fun p k => x0 (ix2 p k)) (fun _ _ => rfl)
  have r3 := cast_rows (φ := .bf16) x1 shapeCasts_S256x2048_S256x2048 (fun p k => x1 (ix2 p k)) (fun _ _ => rfl)
  have r5 := cast_rows (φ := .bf16) x2 shapeCasts_S256x300_S256x300 (fun p k => x2 (ix2 p k)) (fun _ _ => rfl)
  -- the three products into zero accumulators, and their sum
  have r8 := mm_rows dot_S256x256_S256x1024_S256x1024_1_0_0_1_n_n plain_poe none _ x3 shapeCasts_S256x1024_S256x1024 _ r1
  have r11 := mm_rows dot_S256x2048_S2048x1024_S256x1024_1_0_0_1_n_n plain_vis none _ x4 shapeCasts_S2048x1024_S2048x1024 _ r3
  have r12 := add_rows _ _ _ _ r8 r11
  have r15 := mm_rows dot_S256x300_S300x1024_S256x1024_1_0_0_1_n_n plain_glv none _ x5 shapeCasts_S300x1024_S300x1024 _ r5
  have r16 := add_rows _ _ _ _ r12 r15
  -- the bias spread over the rows, the rectifier, the change of format
  have r20 := bias_rows _ x6 shapeCasts_S1x1024_S1x1024 broadcasts_S1x1024_S256x1024 _ r16
  have r22 := relu_rows _ _ r20
  have r23 := trunc_rows (ψ := .bf16) _ bitsLt_bf16_f32 _ r22
  -- the second layer
  have r26 := mm_rows dot_S256x1024_S1024x512_S256x512_1_0_0_1_n_n plain_out none _ x7 shapeCasts_S1024x512_S1024x512 _ r23
  have r30 := bias_rows _ x8 shapeCasts_S1x512_S1x512 broadcasts_S1x512_S256x512 _ r26
  have r32 := relu_rows _ _ r30
  exact r32 p q

end Cert.KernelIdeal.Tile

end
-- ==== Proof.KernelArray.lean ====
/-
  From the grid steps to the whole output array.

  The grid has 128 steps; step `t` works on rows `256·t … 256·t + 255` of the three feature arrays and of the output,
  and on the whole of every weight and bias array.  So what step `t` writes back is block `t` of ONE function of the
  arrays as the region finds them — `wholeOut`: entry `(r, q)` is `Mlp.splitRow` of the three rows `r` of the feature
  arrays —, the 128 blocks tile the 32768 rows, and after the run the output array is that function.
-/
import proofs.«126902_j52355651338246_2_alg».proof.Proof.Gen.KernelIdeal.Value
import proofs.«126902_j52355651338246_2_alg».proof.Proof.KernelTile

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open Cert.TileRows

variable (m : (ℓ : Loc nD τ sig) → Buf (Elt Ideal) ℓ) (ρ : Dev nD → PrngReg)

theorem zero_offsets : (![0, 0] : Fin 2 → Nat) = fun _ => 0 := funext fun a => by fin_cases a <;> rfl

/-- The output array as one function of the nine arrays the kernel's windows stage: entry `(r, q)` is the split two-layer
    computation on rows `r` of the three feature arrays. -/
def wholeOut (a0 : FVec Ideal S32768x256 .bf16) (a1 : FVec Ideal S32768x2048 .bf16) (a2 : FVec Ideal S32768x300 .bf16)
    (w3 : FVec Ideal S256x1024 .bf16) (w4 : FVec Ideal S2048x1024 .bf16) (w5 : FVec Ideal S300x1024 .bf16)
    (b6 : FVec Ideal S1x1024 .f32) (w7 : FVec Ideal S1024x512 .bf16) (b8 : FVec Ideal S1x512 .f32) :
    FVec Ideal S32768x512 .f32 :=
  fun i => Cert.Mlp.splitRow (rowOf a0 (i 0)) (rowOf a1 (i 0)) (rowOf a2 (i 0)) (matOf w3) (matOf w4) (matOf w5) (vecOf b6)
    (matOf w7) (vecOf b8) (i 1)

/-- The index maps, decided over the 128 grid steps: the three feature windows and the output window sit at block
    `(t, 0)`, the six weight and bias windows at block `(0, 0)`. -/
theorem idx_facts : ∀ t : Fin cfg0.N,
    win0_0.index t (0 : Fin 2) = win0_9.index t (0 : Fin 2) ∧ win0_0.index t (1 : Fin 2) = 0
    ∧ win0_1.index t (0 : Fin 2) = win0_9.index t (0 : Fin 2) ∧ win0_1.index t (1 : Fin 2) = 0
    ∧ win0_2.index t (0 : Fin 2) = win0_9.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (1 : Fin 2) = 0 ∧ win0_9.index t (0 : Fin 2) ≤ 127 :=
  (by decide +kernel : ∀ t : Fin grid0.N, _)

/-- Every block of 256 rows is some step's. -/
theorem idx_onto : ∀ q0 : Fin 128, ∃ t : Fin cfg0.N, win0_9.index t = ![q0.val, 0] :=
  (by decide +kernel : ∀ q0 : Fin 128, ∃ t : Fin grid0.N, win0_9.index t = ![q0.val, 0])

/-! ## The windows' blocks, read off the arrays -/

/-- A feature block's entry `(p, k)` at step `t` is the array's entry `(256·t + p, k)`. -/
theorem read0 (c : Dev nD) (t : Fin cfg0.N) (y : S256x256.Idx) (i : S32768x256.Idx)
    (h0 : (i 0).val = win0_9.index t (0 : Fin 2) * 256 + (y 0).val) (h1 : (i 1).val = (y 1).val) :
    iblk m c 0 t y = V m c main_v35 i := by
  obtain ⟨e0, e1, -⟩ := idx_facts t
  show V m c main_v35 (((cfg0.win 0).blk t).view.emb y) = V m c main_v35 i
  refine congrArg _ (funext fun a => Fin.ext ?_)
  match a with
  | ⟨0, _⟩ => show win0_0.index t (0 : Fin 2) * 256 + 1 * (y 0).val = (i 0).val; omega
  | ⟨1, _⟩ => show win0_0.index t (1 : Fin 2) * 256 + 1 * (y 1).val = (i 1).val; omega

theorem read1 (c : Dev nD) (t : Fin cfg0.N) (y : S256x2048.Idx) (i : S32768x2048.Idx)
    (h0 : (i 0).val = win0_9.index t (0 : Fin 2) * 256 + (y 0).val) (h1 : (i 1).val = (y 1).val) :
    iblk m c 1 t y = V m c main_v36 i := by
  obtain ⟨-, -, e0, e1, -⟩ := idx_facts t
  show V m c main_v36 (((cfg0.win 1).blk t).view.emb y) = V m c main_v36 i
  refine congrArg _ (funext fun a => Fin.ext ?_)
  match a with
  | ⟨0, _⟩ => show win0_1.index t (0 : Fin 2) * 256 + 1 * (y 0).val = (i 0).val; omega
  | ⟨1, _⟩ => show win0_1.index t (1 : Fin 2) * 2048 + 1 * (y 1).val = (i 1).val; omega

theorem read2 (c : Dev nD) (t : Fin cfg0.N) (y : S256x300.Idx) (i : S32768x300.Idx)
    (h0 : (i 0).val = win0_9.index t (0 : Fin 2) * 256 + (y 0).val) (h1 : (i 1).val = (y 1).val) :
    iblk m c 2 t y = V m c main_v37 i := by
  obtain ⟨-, -, -, -, e0, e1, -⟩ := idx_facts t
  show V m c main_v37 (((cfg0.win 2).blk t).view.emb y) = V m c main_v37 i
  refine congrArg _ (funext fun a => Fin.ext ?_)
  match a with
  | ⟨0, _⟩ => show win0_2.index t (0 : Fin 2) * 256 + 1 * (y 0).val = (i 0).val; omega
  | ⟨1, _⟩ => show win0_2.index t (1 : Fin 2) * 300 + 1 * (y 1).val = (i 1).val; omega

/-- A weight or bias window's one block is its whole array, at every step. -/
theorem read3 (c : Dev nD) (t : Fin cfg0.N) (y : S256x1024.Idx) : iblk m c 3 t y = V m c main_v39 y := by
  obtain ⟨-, -, -, -, -, -, e0, e1, -⟩ := idx_facts t
  show V m c main_v39 (((cfg0.win 3).blk t).view.emb y) = V m c main_v39 y
  refine congrArg _ (funext fun a => Fin.ext ?_)
  match a with
  | ⟨0, _⟩ => show win0_3.index t (0 : Fin 2) * 256 + 1 * (y 0).val = (y 0).val; omega
  | ⟨1, _⟩ => show win0_3.index t (1 : Fin 2) * 1024 + 1 * (y 1).val = (y 1).val; omega

theorem read4 (c : Dev nD) (t : Fin cfg0.N) (y : S2048x1024.Idx) : iblk m c 4 t y = V m c main_v41 y := by
  obtain ⟨-, -, -, -, -, -, -, -, e0, e1, -⟩ := idx_facts t
  show V m c main_v41 (((cfg0.win 4).blk t).view.emb y) = V m c main_v41 y
  refine congrArg _ (funext fun a => Fin.ext ?_)
  match a with
  | ⟨0, _⟩ => show win0_4.index t (0 : Fin 2) * 2048 + 1 * (y 0).val = (y 0).val; omega
  | ⟨1, _⟩ => show win0_4.index t (1 : Fin 2) * 1024 + 1 * (y 1).val = (y 1).val; omega

theorem read5 (c : Dev nD) (t : Fin cfg0.N) (y : S300x1024.Idx) : iblk m c 5 t y = V m c main_v43 y := by
  obtain ⟨-, -, -, -, -, -, -, -, -, -, e0, e1, -⟩ := idx_facts t
  show V m c main_v43 (((cfg0.win 5).blk t).view.emb y) = V m c main_v43 y
  refine congrArg _ (funext fun a => Fin.ext ?_)
  match a with
  | ⟨0, _⟩ => show win0_5.index t (0 : Fin 2) * 300 + 1 * (y 0).val = (y 0).val; omega
  | ⟨1, _⟩ => show win0_5.index t (1 : Fin 2) * 1024 + 1 * (y 1).val = (y 1).val; omega

theorem read6 (c : Dev nD) (t : Fin cfg0.N) (y : S1x1024.Idx) : iblk m c 6 t y = V m c main_v45 y := by
  obtain ⟨-, -, -, -, -, -, -, -, -, -, -, -, e0, e1, -⟩ := idx_facts t
  show V m c main_v45 (((cfg0.win 6).blk t).view.emb y) = V m c main_v45 y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 1024 + 1 * (y 1).val = (y 1).val; omega

theorem read7 (c : Dev nD) (t : Fin cfg0.N) (y : S1024x512.Idx) : iblk m c 7 t y = V m c main_v44 y := by
  obtain ⟨-, -, -, -, -, -, -, -, -, -, -, -, -, -, e0, e1, -⟩ := idx_facts t
  show V m c main_v44 (((cfg0.win 7).blk t).view.emb y) = V m c main_v44 y
  refine congrArg _ (funext fun a => Fin.ext ?_)
  match a with
  | ⟨0, _⟩ => show win0_7.index t (0 : Fin 2) * 1024 + 1 * (y 0).val = (y 0).val; omega
  | ⟨1, _⟩ => show win0_7.index t (1 : Fin 2) * 512 + 1 * (y 1).val = (y 1).val; omega

theorem read8 (c : Dev nD) (t : Fin cfg0.N) (y : S1x512.Idx) : iblk m c 8 t y = V m c main_v46 y := by
  obtain ⟨-, -, -, -, -, -, -, -, -, -, -, -, -, -, -, -, e0, e1, -⟩ := idx_facts t
  show V m c main_v46 (((cfg0.win 8).blk t).view.emb y) = V m c main_v46 y
  refine congrArg _ (funext fun a => Fin.ext ?_)
  match a with
  | ⟨0, _⟩ => show win0_8.index t (0 : Fin 2) * 1 + 1 * (y 0).val = (y 0).val; omega
  | ⟨1, _⟩ => show win0_8.index t (1 : Fin 2) * 512 + 1 * (y 1).val = (y 1).val; omega

/-! ## What a step writes back, the cover, the array -/

/-- What step `t` writes back is block `t` of `wholeOut` of the arrays as the region finds them. -/
theorem flushed_eq (c : Dev nD) (t : Fin cfg0.N) :
    (dats m 0 c).flushed 9 t = ((cfg0.win 9).blk t).view.read (Elt Ideal)
      (wholeOut (V m c main_v35) (V m c main_v36) (V m c main_v37) (V m c main_v39) (V m c main_v41) (V m c main_v43)
        (V m c main_v45) (V m c main_v44) (V m c main_v46)) := by
  rw [Cert.KernelIdeal.Value.flushed9]
  unfold out0_9
  rw [View.canon_unit_zero zero_offsets]
  simp only [View.ld_unit_zero (S := S256x256) zero_offsets, View.ld_unit_zero (S := S256x2048) zero_offsets,
    View.ld_unit_zero (S := S256x300) zero_offsets, View.ld_unit_zero (S := S256x1024) zero_offsets,
    View.ld_unit_zero (S := S2048x1024) zero_offsets, View.ld_unit_zero (S := S300x1024) zero_offsets,
    View.ld_unit_zero (S := S1x1024) zero_offsets, View.ld_unit_zero (S := S1024x512) zero_offsets,
    View.ld_unit_zero (S := S1x512) zero_offsets]
  funext y
  obtain ⟨p, q, rfl⟩ : ∃ (p : Fin 256) (q : Fin 512), y = ix2 p q := ⟨y 0, y 1, eq_ix2 y⟩
  obtain ⟨-, -, -, -, -, -, -, -, -, -, -, -, -, -, -, -, -, -, e91, -⟩ := idx_facts t
  have hi0 : ((((cfg0.win 9).blk t).view.emb (ix2 p q)) 0).val = win0_9.index t (0 : Fin 2) * 256 + 1 * p.val := rfl
  have hi1 : ((((cfg0.win 9).blk t).view.emb (ix2 p q)) 1).val = win0_9.index t (1 : Fin 2) * 512 + 1 * q.val := rfl
  show k0_pay1 (F := Ideal) (iblk m c 0 t) (iblk m c 1 t) (iblk m c 2 t) (iblk m c 3 t) (iblk m c 4 t) (iblk m c 5 t)
      (iblk m c 6 t) (iblk m c 7 t) (iblk m c 8 t) (ix2 p q)
    = wholeOut (V m c main_v35) (V m c main_v36) (V m c main_v37) (V m c main_v39) (V m c main_v41) (V m c main_v43)
        (V m c main_v45) (V m c main_v44) (V m c main_v46) (((cfg0.win 9).blk t).view.emb (ix2 p q))
  generalize ((cfg0.win 9).blk t).view.emb (ix2 p q) = i at hi0 hi1
  refine (Cert.KernelIdeal.Tile.pay_apply _ _ _ _ _ _ _ _ _ p q).trans ?_
  unfold wholeOut
  exact Cert.Mlp.splitRow_congr
    (funext fun k => read0 m c t (ix2 p k) (ix2 (i 0) k) (by show (i 0).val = _ + p.val; omega) rfl)
    (funext fun k => read1 m c t (ix2 p k) (ix2 (i 0) k) (by show (i 0).val = _ + p.val; omega) rfl)
    (funext fun k => read2 m c t (ix2 p k) (ix2 (i 0) k) (by show (i 0).val = _ + p.val; omega) rfl)
    (funext fun k => funext fun j => read3 m c t (ix2 k j))
    (funext fun k => funext fun j => read4 m c t (ix2 k j))
    (funext fun k => funext fun j => read5 m c t (ix2 k j))
    (funext fun j => read6 m c t (ix2 (0 : Fin 1) j))
    (funext fun k => funext fun j => read7 m c t (ix2 k j))
    (funext fun j => read8 m c t (ix2 (0 : Fin 1) j))
    (Fin.ext (by show q.val = (i 1).val; omega))

/-- An index of the output array is in step `t`'s block iff its row is among the step's 256 rows. -/
theorem mem_blk (t : Fin cfg0.N) (i : S32768x512.Idx) :
    i ∈ ((cfg0.win 9).blk t).view.set ↔ ∀ a : Fin 2, win0_9.index t a * S256x512.size a ≤ (i a).val
      ∧ (i a).val < win0_9.index t a * S256x512.size a + S256x512.size a := by
  show i ∈ ((View.whole main_v47).slice (win0_9.rect t)).set ↔ _
  rw [View.set_slice_whole, Rect.mem_set_unit]
  exact Iff.rfl

/-- The 128 blocks cover the array: row `r` is in the block of step `r / 256`. -/
theorem cover (i : S32768x512.Idx) :
    ∃ t : Fin cfg0.N, (cfg0.win 9).flush t = true ∧ i ∈ ((cfg0.win 9).blk t).view.set := by
  have hi0 : (i 0).val < 32768 := (i 0).isLt
  have hi1 : (i 1).val < 512 := (i 1).isLt
  obtain ⟨t, ht⟩ := idx_onto ⟨(i 0).val / 256, by omega⟩
  have q0 : win0_9.index t (0 : Fin 2) = (i 0).val / 256 := congrFun ht 0
  have q1 : win0_9.index t (1 : Fin 2) = 0 := congrFun ht 1
  refine ⟨t, flush0_9 t, ?_⟩
  rw [mem_blk]
  intro a
  match a with
  | ⟨0, _⟩ =>
    show win0_9.index t (0 : Fin 2) * 256 ≤ (i 0).val ∧ (i 0).val < win0_9.index t (0 : Fin 2) * 256 + 256
    omega
  | ⟨1, _⟩ =>
    show win0_9.index t (1 : Fin 2) * 512 ≤ (i 1).val ∧ (i 1).val < win0_9.index t (1 : Fin 2) * 512 + 512
    omega

/-- After the run the output array is `wholeOut` of the arrays as the region finds them. -/
theorem final (c : Dev nD) :
    (dats m 0 c).arrAt 9 cfg0.N
      = wholeOut (V m c main_v35) (V m c main_v36) (V m c main_v37) (V m c main_v39) (V m c main_v41) (V m c main_v43)
          (V m c main_v45) (V m c main_v44) (V m c main_v46) :=
  (dats m 0 c).arrAt_eq_of_cover 9 _ (fun t _ => flushed_eq m c t) cover

end Cert.KernelIdeal.Whole

end
-- ==== Proof.KernelInputs.lean ====
/-
  What the region finds in the nine arrays its windows stage.

  Before the one region, the kernel's program runs 64 host operations.  They build the three feature arrays exactly as
  the reference does — the same operations on the same arguments, so each is the reference's own stage of the
  arguments (`val_main_v31`, `val_main_v16`, `val_main_v34`) — then change their float format, cut the first weight
  matrix into its three blocks of rows (rows 0–255, 256–2303, 2304–2603), change the format of the blocks and of the
  second weight matrix, and make each bias vector a one-row matrix.  At the extended reals a change of float format is the
  identity, so the staged arrays are those stages, those blocks, and the biases re-laid.
-/
import proofs.«126902_j52355651338246_2_alg».proof.Proof.Gen.KernelIdeal.Frame
import proofs.«126902_j52355651338246_2_alg».proof.Proof.RefRead

noncomputable section

namespace Cert.KernelIdeal.Inputs

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (c : Dev nD)

set_option maxRecDepth 8192 in
set_option maxHeartbeats 4000000 in
/-- The position-encoding features, as the region finds them: the reference's stage of the same arguments. -/
theorem poe_eq : (V m c main_v35 : S32768x256.Idx → EReal)
    = Cert.ReferenceIdeal.ReadP.val_main_v31 (F := Ideal) (m ((c : Thread nD τ).loc main_arg1)) (m ((c : Thread nD τ).loc main_arg2)) (m ((c : Thread nD τ).loc main_arg8)) := by
  dsimp only [V]
  simp only [hostOps0, hostOps0_1, hostOps0_2, List.flatten_cons, List.flatten_nil, List.append_nil, List.cons_append,
    List.nil_append]
  after_results_simp <;> rfl

set_option maxRecDepth 8192 in
set_option maxHeartbeats 4000000 in
/-- The visual features (the scatter-add of the region-of-interest rows). -/
theorem vis_eq : (V m c main_v36 : S32768x2048.Idx → EReal)
    = Cert.ReferenceIdeal.ReadP.val_main_v16 (F := Ideal) (m ((c : Thread nD τ).loc main_arg0)) (m ((c : Thread nD τ).loc main_arg8)) := by
  dsimp only [V]
  simp only [hostOps0, hostOps0_1, hostOps0_2, List.flatten_cons, List.flatten_nil, List.append_nil, List.cons_append,
    List.nil_append]
  after_results_simp <;> rfl

set_option maxRecDepth 8192 in
set_option maxHeartbeats 4000000 in
/-- The word-vector features (the table repeated once per batch element). -/
theorem glv_eq : (V m c main_v37 : S32768x300.Idx → EReal)
    = Cert.ReferenceIdeal.ReadP.val_main_v34 (F := Ideal) (m ((c : Thread nD τ).loc main_arg3)) := by
  dsimp only [V]
  simp only [hostOps0, hostOps0_1, hostOps0_2, List.flatten_cons, List.flatten_nil, List.append_nil, List.cons_append,
    List.nil_append]
  after_results_simp <;> rfl

set_option maxRecDepth 8192 in
set_option maxHeartbeats 4000000 in
/-- Rows 0–255 of the first weight matrix. -/
theorem w1a_eq : (V m c main_v39 : S256x1024.Idx → EReal)
    = extractStridedSlice S256x1024 ![0, 0] (m ((c : Thread nD τ).loc main_arg4)) slices_S2604x1024_S256x1024_0_0 := by
  dsimp only [V]
  simp only [hostOps0, hostOps0_1, hostOps0_2, List.flatten_cons, List.flatten_nil, List.append_nil, List.cons_append,
    List.nil_append]
  after_results_simp <;> rfl

set_option maxRecDepth 8192 in
set_option maxHeartbeats 4000000 in
/-- Rows 256–2303 of the first weight matrix. -/
theorem w1b_eq : (V m c main_v41 : S2048x1024.Idx → EReal)
    = extractStridedSlice S2048x1024 ![256, 0] (m ((c : Thread nD τ).loc main_arg4)) slices_S2604x1024_S2048x1024_256_0 := by
  dsimp only [V]
  simp only [hostOps0, hostOps0_1, hostOps0_2, List.flatten_cons, List.flatten_nil, List.append_nil, List.cons_append,
    List.nil_append]
  after_results_simp <;> rfl

set_option maxRecDepth 8192 in
set_option maxHeartbeats 4000000 in
/-- Rows 2304–2603 of the first weight matrix. -/
theorem w1c_eq : (V m c main_v43 : S300x1024.Idx → EReal)
    = extractStridedSlice S300x1024 ![2304, 0] (m ((c : Thread nD τ).loc main_arg4)) slices_S2604x1024_S300x1024_2304_0 := by
  dsimp only [V]
  simp only [hostOps0, hostOps0_1, hostOps0_2, List.flatten_cons, List.flatten_nil, List.append_nil, List.cons_append,
    List.nil_append]
  after_results_simp <;> rfl

set_option maxRecDepth 8192 in
set_option maxHeartbeats 4000000 in
/-- The first bias as a one-row matrix. -/
theorem b1_eq : (V m c main_v45 : S1x1024.Idx → EReal) = shapeCast S1x1024 (m ((c : Thread nD τ).loc main_arg5)) shapeCasts_S1024_S1x1024 := by
  dsimp only [V]
  simp only [hostOps0, hostOps0_1, hostOps0_2, List.flatten_cons, List.flatten_nil, List.append_nil, List.cons_append,
    List.nil_append]
  after_results_simp <;> rfl

set_option maxRecDepth 8192 in
set_option maxHeartbeats 4000000 in
/-- The second weight matrix. -/
theorem w2_eq : (V m c main_v44 : S1024x512.Idx → EReal) = (m ((c : Thread nD τ).loc main_arg6)) := by
  dsimp only [V]
  simp only [hostOps0, hostOps0_1, hostOps0_2, List.flatten_cons, List.flatten_nil, List.append_nil, List.cons_append,
    List.nil_append]
  after_results_simp <;> rfl

set_option maxRecDepth 8192 in
set_option maxHeartbeats 4000000 in
/-- The second bias as a one-row matrix. -/
theorem b2_eq : (V m c main_v46 : S1x512.Idx → EReal) = shapeCast S1x512 (m ((c : Thread nD τ).loc main_arg7)) shapeCasts_S512_S1x512 := by
  dsimp only [V]
  simp only [hostOps0, hostOps0_1, hostOps0_2, List.flatten_cons, List.flatten_nil, List.append_nil, List.cons_append,
    List.nil_append]
  after_results_simp <;> rfl

end Cert.KernelIdeal.Inputs

end
-- ==== Proof.LibHostRows.lean ====
/-
  Reading a host array of rows, operation by operation, at the extended reals: the host's product, its bias spread over
  the rows (a vector made a one-row matrix, then repeated), and its rectifier against a repeated zero constant. Each
  lemma takes the rows of the operand and returns the rows of the result, for arbitrary extents.
-/
import proofs.«126902_j52355651338246_2_alg».proof.Proof.LibPlainDot
import Idealize.ShloMosaic.Lib.Pipeline.Value

noncomputable section

namespace Cert.HostRows

open Idealize.ShloMosaic Idealize.ShloMosaic.ValueIdx

variable {M K N : Nat}

/-- The host's plain product: row `p` of the result is row `p` of the left operand times the matrix. -/
theorem dot_rows {φ₁ φ₂ : FTy} (d : DotDims ⟨2, ![M, K]⟩ ⟨2, ![K, N]⟩ ⟨2, ![M, N]⟩) (hd : Cert.PlainDot.IsPlain d)
    (prec : Option ContractPrecision) (X : FVec Ideal ⟨2, ![M, K]⟩ φ₁) (w : FVec Ideal ⟨2, ![K, N]⟩ φ₂)
    (xr : Fin M → Fin K → EReal) (hX : ∀ p k, X (ix2 p k) = xr p k) :
    ∀ p q, Host.dotGeneral d prec X w (ix2 p q) = ∑ k : Fin K, xr p k * w (ix2 k q) := fun p q => by
  refine (Ideal.dotGeneral_apply d prec .single X w (ix2 p q)).trans ?_
  refine (Cert.PlainDot.sum_contr d hd X w p q).trans ?_
  exact Finset.sum_congr rfl fun k _ => by rw [hX p k]

/-- Adding a bias vector, made a one-row matrix and repeated over the rows. -/
theorem bias_rows (Y : FVec Ideal ⟨2, ![M, N]⟩ .f32) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![M, N]⟩ ![0, 1])
    (yr : Fin M → Fin N → EReal) (hY : ∀ p q, Y (ix2 p q) = yr p q) :
    ∀ p q, addf Y (broadcastInDim ⟨2, ![M, N]⟩ ![0, 1] h2 (broadcastInDim ⟨2, ![1, N]⟩ ![1] h1 b)) (ix2 p q) = yr p q + b (ix1 q) := fun p q => by
  rw [addf_apply, hY p q]
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  rw [broadcastInDim_apply ![1] h1 b (ix2 (0 : Fin 1) q) (ix1 q) (fun a => by
    match a with
    | ⟨0, _⟩ =>
      show q.val = if N = 1 then 0 else q.val
      split
      · have := q.isLt; omega
      · rfl)]

/-- The rectifier against the zero constant repeated over the array. -/
theorem relu_rows (Y : FVec Ideal ⟨2, ![M, N]⟩ .f32) (h0 : (⟨0, ![]⟩ : Shape).BroadcastsInDim ⟨2, ![M, N]⟩ ![])
    (yr : Fin M → Fin N → EReal) (hY : ∀ p q, Y (ix2 p q) = yr p q) :
    ∀ p q, maximumf Y (broadcastInDim ⟨2, ![M, N]⟩ ![] h0 (constant (F := Ideal) ⟨0, ![]⟩ .f32 0x00000000#32)) (ix2 p q) = max (yr p q) 0 := fun p q => by
  rw [maximumf_apply, hY p q, broadcastInDim_apply ![] h0 _ (ix2 p q) ix0 (fun a => a.elim0), constant_apply, Ideal.ofBits_zero_f32]

end Cert.HostRows

end
-- ==== Proof.Reference.lean ====
/-
  The reference read entry by entry.

  After building the three feature arrays the reference sets them side by side (a 32768 × 2604 array), multiplies by
  the whole first weight matrix, adds the first bias spread over the rows, rectifies, multiplies by the second weight
  matrix, adds the second bias and rectifies.  Entry `(r, q)` of its result is therefore `Mlp.layer` twice applied to
  row `r` of the joined array, and that row is the three feature rows `r` one after another.  `out` is this function of
  the nine arguments; it is the value both programs are shown to end with.
-/
import proofs.«126902_j52355651338246_2_alg».proof.Proof.RefRead
import proofs.«126902_j52355651338246_2_alg».proof.Proof.LibHostRows
import proofs.«126902_j52355651338246_2_alg».proof.Proof.LibTileRows
import proofs.«126902_j52355651338246_2_alg».proof.Proof.Mlp

noncomputable section

namespace Cert.ReferenceIdeal.Rows

open Cert.ReferenceIdeal Cert.ReferenceIdeal.Gen Idealize.ShloMosaic Idealize.ShloMosaic.ValueIdx
open Cert.ReferenceIdeal.ReadP Cert.TileRows Cert.ThreeParts

/-- The reference's two products are plain ones: columns of the left operand against rows of the right. -/
theorem plain_first : Cert.PlainDot.IsPlain dot_S32768x2604_S2604x1024_S32768x1024_1_0_0_1_n_n := ⟨rfl, rfl, rfl, rfl, rfl, rfl⟩
theorem plain_second : Cert.PlainDot.IsPlain dot_S32768x1024_S1024x512_S32768x512_1_0_0_1_n_n := ⟨rfl, rfl, rfl, rfl, rfl, rfl⟩

/-- The joined row's width: 256 position-encoding columns, 2048 visual columns, 300 word-vector columns. -/
theorem widths : (2604 : Nat) = 256 + 2048 + 300 := rfl

/-- The result as one function of the nine arguments: entry `(r, q)` is the two rectified layers applied to the three
    feature rows `r` joined, the feature arrays being the stages `val_main_v31`, `val_main_v16`, `val_main_v34` of the
    arguments. -/
def out (x0 : (⟨S16384x2048, .f32⟩ : BufTy).Contents (Elt Ideal))
    (x1 : (⟨S128x256x4, .f32⟩ : BufTy).Contents (Elt Ideal))
    (x2 : (⟨S225x64, .f32⟩ : BufTy).Contents (Elt Ideal))
    (x3 : (⟨S256x300, .f32⟩ : BufTy).Contents (Elt Ideal))
    (x4 : (⟨S2604x1024, .f32⟩ : BufTy).Contents (Elt Ideal))
    (x5 : (⟨S1024, .f32⟩ : BufTy).Contents (Elt Ideal))
    (x6 : (⟨S1024x512, .f32⟩ : BufTy).Contents (Elt Ideal))
    (x7 : (⟨S512, .f32⟩ : BufTy).Contents (Elt Ideal))
    (x8 : (⟨S16384, .i32⟩ : BufTy).Contents (Elt Ideal)) : FVec Ideal S32768x512 .f32 :=
  fun i => Cert.Mlp.layer
    (Cert.Mlp.layer
      (three widths (rowOf (val_main_v31 (F := Ideal) x1 x2 x8) (i 0)) (rowOf (val_main_v16 (F := Ideal) x0 x8) (i 0))
        (rowOf (val_main_v34 (F := Ideal) x3) (i 0)))
      (matOf x4) (vec1 x5))
    (matOf x6) (vec1 x7) (i 1)

/-- The reference's last stage is `out`. -/
theorem stage_eq (x0 : (⟨S16384x2048, .f32⟩ : BufTy).Contents (Elt Ideal))
    (x1 : (⟨S128x256x4, .f32⟩ : BufTy).Contents (Elt Ideal))
    (x2 : (⟨S225x64, .f32⟩ : BufTy).Contents (Elt Ideal))
    (x3 : (⟨S256x300, .f32⟩ : BufTy).Contents (Elt Ideal))
    (x4 : (⟨S2604x1024, .f32⟩ : BufTy).Contents (Elt Ideal))
    (x5 : (⟨S1024, .f32⟩ : BufTy).Contents (Elt Ideal))
    (x6 : (⟨S1024x512, .f32⟩ : BufTy).Contents (Elt Ideal))
    (x7 : (⟨S512, .f32⟩ : BufTy).Contents (Elt Ideal))
    (x8 : (⟨S16384, .i32⟩ : BufTy).Contents (Elt Ideal)) :
    val_main_v45 (F := Ideal) x0 x1 x2 x3 x4 x5 x6 x7 x8 = out x0 x1 x2 x3 x4 x5 x6 x7 x8 := by
  funext i
  obtain ⟨p, q, rfl⟩ : ∃ (p : Fin 32768) (q : Fin 512), i = ix2 p q := ⟨i 0, i 1, eq_ix2 i⟩
  -- the three feature arrays side by side: row `p` is the three rows `p` joined
  have c35 := concat3_rows widths (val_main_v31 (F := Ideal) x1 x2 x8) (val_main_v16 (F := Ideal) x0 x8)
    (val_main_v34 (F := Ideal) x3) concatenates_S32768x256_S32768x2048_S32768x300_S32768x2604_d1
    (fun p => rowOf (val_main_v31 (F := Ideal) x1 x2 x8) p) (fun p => rowOf (val_main_v16 (F := Ideal) x0 x8) p)
    (fun p => rowOf (val_main_v34 (F := Ideal) x3) p) (fun _ _ => rfl) (fun _ _ => rfl) (fun _ _ => rfl)
  -- the first layer
  have d36 := Cert.HostRows.dot_rows (φ₁ := .f32) (φ₂ := .f32) dot_S32768x2604_S2604x1024_S32768x1024_1_0_0_1_n_n plain_first none
    (val_main_v35 (F := Ideal) x0 x1 x2 x3 x8) x4 _ c35
  have b39 := Cert.HostRows.bias_rows (val_main_v36 (F := Ideal) x0 x1 x2 x3 x4 x8) x5 bcast_S1024_S1x1024_1
    bcast_S1x1024_S32768x1024_0_1 _ d36
  have r40 := Cert.HostRows.relu_rows (val_main_v39 (F := Ideal) x0 x1 x2 x3 x4 x5 x8) bcast_S_S32768x1024 _ b39
  -- the second layer
  have d41 := Cert.HostRows.dot_rows (φ₁ := .f32) (φ₂ := .f32) dot_S32768x1024_S1024x512_S32768x512_1_0_0_1_n_n plain_second none
    (val_main_v40 (F := Ideal) x0 x1 x2 x3 x4 x5 x8) x6 _ r40
  have b44 := Cert.HostRows.bias_rows (val_main_v41 (F := Ideal) x0 x1 x2 x3 x4 x5 x6 x8) x7 bcast_S512_S1x512_1
    bcast_S1x512_S32768x512_0_1 _ d41
  have r45 := Cert.HostRows.relu_rows (val_main_v44 (F := Ideal) x0 x1 x2 x3 x4 x5 x6 x7 x8) bcast_S_S32768x512 _ b44
  exact r45 p q

end Cert.ReferenceIdeal.Rows

end
-- ==== Proof.KernelValue.lean ====
/-
  The kernel's run, read back: its output array is the same function `out` of the nine arguments as the reference's.

  After the run the output array is `wholeOut` of the staged arrays: entry `(r, q)` is the two layers with the first
  product taken as three partial products, of the three feature rows `r` against the three blocks of rows of the first
  weight matrix.  The staged arrays are the reference's own feature stages, the three consecutive stretches of rows of
  the one weight matrix, and the biases.  Three partial sums over consecutive stretches of a finite sum are the whole
  sum, so this is the two layers applied to the joined row: `out`.
-/
import proofs.«126902_j52355651338246_2_alg».proof.Proof.KernelArray
import proofs.«126902_j52355651338246_2_alg».proof.Proof.KernelInputs
import proofs.«126902_j52355651338246_2_alg».proof.Proof.Reference
import Idealize.ShloMosaic.Lib.ValueLayout

noncomputable section

namespace Cert.KernelIdeal.Result

open Cert.KernelIdeal Cert.KernelIdeal.Gen Idealize.ShloMosaic Idealize.ShloMosaic.TcCoe Idealize.SL.Sem
open Idealize.ShloMosaic.ValueIdx Cert.TileRows
open Cert.KernelIdeal.Whole Cert.KernelIdeal.Inputs

variable (m : (ℓ : Loc nD τ sig) → Buf (Elt Ideal) ℓ) (ρ : Dev nD → PrngReg)

/-- The output array after the run is the reference's function of the arguments. -/
theorem out_eq (c : Dev nD) :
    (dats m 0 c).arrAt 9 cfg0.N = Cert.ReferenceIdeal.Rows.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [final m c]
  funext i
  obtain ⟨r, q, rfl⟩ : ∃ (r : Fin 32768) (q : Fin 512), i = ix2 r q := ⟨i 0, i 1, eq_ix2 i⟩
  show Cert.Mlp.splitRow (rowOf (V m c main_v35) r) (rowOf (V m c main_v36) r) (rowOf (V m c main_v37) r)
      (matOf (V m c main_v39)) (matOf (V m c main_v41)) (matOf (V m c main_v43)) (vecOf (V m c main_v45))
      (matOf (V m c main_v44)) (vecOf (V m c main_v46)) q = _
  refine (Cert.Mlp.splitRow_congr ?_ ?_ ?_ ?_ ?_ ?_ ?_ ?_ ?_ rfl).trans
    (congrFun (Cert.Mlp.splitRow_eq Cert.ReferenceIdeal.Rows.widths
      (rowOf (Cert.ReferenceIdeal.ReadP.val_main_v31 (F := Ideal) (m ((c : Thread nD τ).loc main_arg1)) (m ((c : Thread nD τ).loc main_arg2)) (m ((c : Thread nD τ).loc main_arg8))) r)
      (rowOf (Cert.ReferenceIdeal.ReadP.val_main_v16 (F := Ideal) (m ((c : Thread nD τ).loc main_arg0)) (m ((c : Thread nD τ).loc main_arg8))) r)
      (rowOf (Cert.ReferenceIdeal.ReadP.val_main_v34 (F := Ideal) (m ((c : Thread nD τ).loc main_arg3))) r)
      (matOf (m ((c : Thread nD τ).loc main_arg4))) (vec1 (m ((c : Thread nD τ).loc main_arg5))) (matOf (m ((c : Thread nD τ).loc main_arg6))) (vec1 (m ((c : Thread nD τ).loc main_arg7)))) q)
  · exact congrArg (fun X : S32768x256.Idx → EReal => rowOf X r) (poe_eq m c)
  · exact congrArg (fun X : S32768x2048.Idx → EReal => rowOf X r) (vis_eq m c)
  · exact congrArg (fun X : S32768x300.Idx → EReal => rowOf X r) (glv_eq m c)
  · -- rows 0 … 255 of the first weight matrix
    funext k j
    show (V m c main_v39 : S256x1024.Idx → EReal) (ix2 k j) = _
    rw [w1a_eq m c]
    exact slice2_axis0_apply 0 _ slices_S2604x1024_S256x1024_0_0 k j ⟨k.val, by have := k.isLt; omega⟩ (Nat.zero_add _).symm
  · -- rows 256 … 2303
    funext k j
    show (V m c main_v41 : S2048x1024.Idx → EReal) (ix2 k j) = _
    rw [w1b_eq m c]
    exact slice2_axis0_apply 256 _ slices_S2604x1024_S2048x1024_256_0 k j ⟨256 + k.val, by have := k.isLt; omega⟩ rfl
  · -- rows 2304 … 2603
    funext k j
    show (V m c main_v43 : S300x1024.Idx → EReal) (ix2 k j) = _
    rw [w1c_eq m c]
    exact slice2_axis0_apply 2304 _ slices_S2604x1024_S300x1024_2304_0 k j ⟨256 + 2048 + k.val, by have := k.isLt; omega⟩ rfl
  · -- the first bias
    show vecOf (V m c main_v45 : S1x1024.Idx → EReal) = _
    rw [b1_eq m c]
    exact vecOf_cast _ shapeCasts_S1024_S1x1024
  · exact congrArg (fun X : S1024x512.Idx → EReal => matOf X) (w2_eq m c)
  · -- the second bias
    show vecOf (V m c main_v46 : S1x512.Idx → EReal) = _
    rw [b2_eq m c]
    exact vecOf_cast _ shapeCasts_S512_S1x512

/-- Every weakly fair execution of the kernel's program terminates with its result array at `out` of the arguments,
    and the arguments unchanged. -/
theorem run : θ_run defs (onTc (τ := τ) (main (F := Ideal))) ⟨m, fun _ => 0, ρ⟩ fun r => ∀ c : Dev nD,
      r.2.mem ((c : Thread nD τ).loc main_v47) = Cert.ReferenceIdeal.Rows.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (out_eq m c), (h c).2⟩) (Cert.KernelIdeal.Value.run_blocks m ρ)

end Cert.KernelIdeal.Result

end
-- ==== Proof.LibNary3.lean ====
/-
  Two facts about a line of host operations: a three-operand operation read at its result, and a line cut in two.

  An operation whose operands are a literal family of three references writes, at its own result reference, its
  function applied to the three operands' contents — each taken AT ITS OWN REFERENCE, so that a rewriting pass over a
  line of operations can go on to those operands.  (The general statement reads the operands through the family's
  index `k`, under a binder, where no further rewriting reaches.)  The two forms agree because a function on `Fin 3`
  is determined by its three values.
-/
import Idealize.ShloMosaic.Lib.StableHlo.Run

noncomputable section

namespace Cert.Nary3

open Idealize.ShloMosaic Idealize.ShloMosaic.StableHlo Idealize.SL.Sem

variable {τ : Topo} {sig : RefSig} {Val : EltTy → Type} {x a b y : Ref sig .tc}

/-- The result of a three-operand operation, each operand's contents at its own reference. -/
theorem nary3_result
    (f : ((k : Fin 3) → ((![x, a, b] : Fin 3 → Ref sig .tc) k).ty.Contents Val) → y.ty.Contents Val) (hxs hy)
    (G : Valuation τ sig Val) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

/-- The same with the result reference kept out of the rewriting index, for use in one simplification pass. -/
theorem nary3_result'
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  nary3_result f hxs hy G

/-- The contents after a line of operations cut in two: run the first part, then the second from what it leaves. -/
theorem after_append (xs ys : List (HloOp τ sig Val)) (V : Valuation τ sig Val) :
    after (xs ++ ys) V = after ys (after xs V) := by
  induction xs generalizing V with
  | nil => rfl
  | cons op xs ih => exact ih (op.result V)

end Cert.Nary3

end
-- ==== Proof.RefOut.lean ====
/-
  The reference's run, read back.

  The reference is one straight line of 67 host operations, so what a buffer holds at the end is the fold of the
  operations' results over the launch memory.  The line is cut in two at its one three-operand operation, the
  concatenate of the three feature arrays: the 52 operations before it build the three arrays (each from the arguments
  alone), and the concatenate and the 14 operations after it are the two layers.  After the first part the three feature
  arrays are the stages `val_main_v31`, `val_main_v16`, `val_main_v34` of the arguments and the weight and bias
  arguments are untouched; from there the second part computes the last stage `val_main_v45`.  With the first part's
  outcome named by one variable, the concatenate's three operands are read at their own references and nothing has to
  be evaluated.
-/
import proofs.«126902_j52355651338246_2_alg».proof.Proof.RefRead
import proofs.«126902_j52355651338246_2_alg».proof.Proof.LibNary3

noncomputable section

namespace Cert.ReferenceIdeal.Out

open Cert.ReferenceIdeal Cert.ReferenceIdeal.Gen Idealize.ShloMosaic Idealize.ShloMosaic.TcCoe Idealize.SL.Sem
open Idealize.ShloMosaic.StableHlo Cert.ReferenceIdeal.ValueP Cert.ReferenceIdeal.ReadP

variable {F : FTy → Type} [FloatOps F]
variable (m : (ℓ : Loc nD τ sig) → Buf (Elt F) ℓ) (c : Dev nD)

/-- The 52 operations before the concatenate. -/
abbrev featureOps : List (HloOp τ sig (Elt F)) := (ops (F := F)).take 52
/-- The concatenate and the 14 operations after it. -/
abbrev layerOps : List (HloOp τ sig (Elt F)) := (ops (F := F)).drop 52

/-! ## After the first part -/

set_option maxRecDepth 8192 in
set_option maxHeartbeats 4000000 in
theorem poe_at : after (featureOps (F := F)) (launchContents m c) (Proc.devRef .tc main_v31)
    = val_main_v31 (F := F) (m ((c.tc : Thread nD τ).loc main_arg1)) (m ((c.tc : Thread nD τ).loc main_arg2)) (m ((c.tc : Thread nD τ).loc main_arg8)) := by
  simp only [featureOps, ops, List.take_succ_cons, List.take_zero]
  after_results_simp <;> rfl

set_option maxRecDepth 8192 in
set_option maxHeartbeats 4000000 in
theorem vis_at : after (featureOps (F := F)) (launchContents m c) (Proc.devRef .tc main_v16)
    = val_main_v16 (F := F) (m ((c.tc : Thread nD τ).loc main_arg0)) (m ((c.tc : Thread nD τ).loc main_arg8)) := by
  simp only [featureOps, ops, List.take_succ_cons, List.take_zero]
  after_results_simp <;> rfl

set_option maxRecDepth 8192 in
set_option maxHeartbeats 4000000 in
theorem glv_at : after (featureOps (F := F)) (launchContents m c) (Proc.devRef .tc main_v34)
    = val_main_v34 (F := F) (m ((c.tc : Thread nD τ).loc main_arg3)) := by
  simp only [featureOps, ops, List.take_succ_cons, List.take_zero]
  after_results_simp <;> rfl

set_option maxRecDepth 8192 in
set_option maxHeartbeats 4000000 in
theorem weights_at :
    after (featureOps (F := F)) (launchContents m c) (Proc.devRef .tc main_arg4) = (m ((c.tc : Thread nD τ).loc main_arg4))
    ∧ after (featureOps (F := F)) (launchContents m c) (Proc.devRef .tc main_arg5) = (m ((c.tc : Thread nD τ).loc main_arg5))
    ∧ after (featureOps (F := F)) (launchContents m c) (Proc.devRef .tc main_arg6) = (m ((c.tc : Thread nD τ).loc main_arg6))
    ∧ after (featureOps (F := F)) (launchContents m c) (Proc.devRef .tc main_arg7) = (m ((c.tc : Thread nD τ).loc main_arg7)) := by
  simp only [featureOps, ops, List.take_succ_cons, List.take_zero]
  refine ⟨?_, ?_, ?_, ?_⟩ <;> (after_results_simp <;> rfl)

/-! ## The whole line -/

set_option maxRecDepth 8192 in
set_option maxHeartbeats 4000000 in
/-- What the result buffer holds after the 67 operations: the last stage of the arguments. -/
theorem out_eq : after (ops (F := F)) (launchContents m c) (Proc.devRef .tc main_v45)
    = val_main_v45 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have hcut : after (ops (F := F)) (launchContents m c)
      = after (layerOps (F := F)) (after (featureOps (F := F)) (launchContents m c)) := by
    rw [← Cert.Nary3.after_append]
    exact congrArg (fun l => after l (launchContents m c)) (List.take_append_drop 52 (ops (F := F))).symm
  rw [hcut]
  have e31 := poe_at m c
  have e16 := vis_at m c
  have e34 := glv_at m c
  obtain ⟨e4, e5, e6, e7⟩ := weights_at m c
  generalize after (featureOps (F := F)) (launchContents m c) = W at e31 e16 e34 e4 e5 e6 e7 ⊢
  simp only [layerOps, ops, List.drop_succ_cons, List.drop_zero]
  simp (disch := decide) only [after_cons, after_nil,
    nullary_result', unary_result', binary_result', ternary_result', quaternary_result', reshape_result',
    Cert.Nary3.nary3_result',
    nullary_result_ne', unary_result_ne', binary_result_ne', ternary_result_ne', quaternary_result_ne', reshape_result_ne',
    nary_result_ne']
  rw [e31, e16, e34, e4, e5, e6, e7]
  rfl

set_option maxRecDepth 8192 in
set_option maxHeartbeats 26800000 in
/-- On every device, for any float values, from any memory with zero counters: every weakly fair execution of the
    reference terminates with its result at the last stage of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v45) = val_main_v45 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v45).trans (out_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl)⟩)
    (run_seq scopedRefs_eq scopedSems_eq defs main (fun _ => ops) main_eq (fun _ => ops_sub) m ρ)

end Cert.ReferenceIdeal.Out

end
-- ==== Proof.lean ====
/-
  A fused two-layer perceptron over three feature arrays, against the same perceptron on their concatenation.

  Both programs first build, by the same host operations on the same arguments, three feature arrays of 32768 rows: a
  position encoding gathered from a table and masked (256 columns), region-of-interest features scattered into place
  (2048 columns) and a word-vector table repeated per batch element (300 columns).  The reference sets them side by
  side, multiplies the 2604-column array by the first weight matrix, adds a bias, rectifies, multiplies by the second
  weight matrix, adds a bias and rectifies.  The kernel never forms the concatenation: on each block of 256 rows it
  multiplies each feature block by its own block of rows of the first weight matrix (rows 0–255, 256–2303, 2304–2603),
  adds the three products, and goes on as the reference does, feeding its products in a shorter float format.

  At the extended reals the change of float format is the identity, a product into a zero accumulator is the plain sum
  of products, and the three partial sums over consecutive stretches of the 2604 columns add up to the one sum over all
  of them.  The last fact is a regrouping of a finite sum (associativity and commutativity of addition only), so it holds
  whatever the entries are and the precondition that the inputs are finite is never opened.  Both programs therefore end
  with the one function `Cert.ReferenceIdeal.Rows.out` of the nine arguments.

  The idealizing pass rewrote nothing in the kernel, so the statement relating the kernel to its idealization is empty.
  The three frames are the generated frame certificates of the two kernels' programs and the reference's run with its
  result dropped.
-/
import proofs.«126902_j52355651338246_2_alg».proof.Defs
import proofs.«126902_j52355651338246_2_alg».proof.Proof.Gen.Kernel
import proofs.«126902_j52355651338246_2_alg».proof.Proof.Gen.Kernel.Skeleton
import proofs.«126902_j52355651338246_2_alg».proof.Proof.Gen.Kernel.Launch
import proofs.«126902_j52355651338246_2_alg».proof.Proof.Gen.Kernel.Points
import proofs.«126902_j52355651338246_2_alg».proof.Proof.Gen.Kernel.Frame
import proofs.«126902_j52355651338246_2_alg».proof.Proof.Gen.KernelIdeal
import proofs.«126902_j52355651338246_2_alg».proof.Proof.Gen.KernelIdeal.Skeleton
import proofs.«126902_j52355651338246_2_alg».proof.Proof.Gen.KernelIdeal.Launch
import proofs.«126902_j52355651338246_2_alg».proof.Proof.Gen.KernelIdeal.Points
import proofs.«126902_j52355651338246_2_alg».proof.Proof.Gen.KernelIdeal.Frame
import proofs.«126902_j52355651338246_2_alg».proof.Proof.Gen.ReferenceIdeal
import proofs.«126902_j52355651338246_2_alg».proof.Proof.Gen.Pre_finite_inputs
import proofs.«126902_j52355651338246_2_alg».proof.Proof.Gen.KernelIdeal.Value
import proofs.«126902_j52355651338246_2_alg».proof.Proof.KernelValue
import proofs.«126902_j52355651338246_2_alg».proof.Proof.RefOut
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Out.run (F := Ideal) m ρ)

/-- The idealizing pass rewrote no operation of the kernel. -/
theorem preserves : Cert.preserves_Kernel_KernelIdeal := trivial

/-- From memories that agree on the nine arguments both programs end with `Rows.out` of those arguments: the kernel by
    its run read back block by block, the reference by its run read back stage by stage. -/
theorem algebraic : Cert.algebraic_KernelIdeal_ReferenceIdeal := by
  intro m ρ m' ρ' _ hagree
  refine ⟨fun c => Cert.ReferenceIdeal.Rows.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Result.run m ρ, ?_⟩
  refine (θ_run Cert.ReferenceIdeal.defs _ _).mono (fun _ h c => ⟨(h c).1.trans ?_, (h c).2⟩)
    (Cert.ReferenceIdeal.Out.run (F := Ideal) m' ρ')
  obtain ⟨a0, a1, a2, a3, a4, a5, a6, a7, a8⟩ := hagree c
  rw [a0, a1, a2, a3, a4, a5, a6, a7, a8]
  exact Cert.ReferenceIdeal.Rows.stage_eq _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
